-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x128 : Shape := ⟨3, ![32, 4096, 128]⟩
abbrev S32 : Shape := ⟨1, ![32]⟩
abbrev S_ : Shape := ⟨0, ![]⟩

class Facts : Prop where
  bcast_S_S32x4096x128 : S_.BroadcastsInDim S32x4096x128 (![] : Fin 0 → Fin S32x4096x128.rank)
  reducesTo_S32x4096x128_S_d0_1_2 : S32x4096x128.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x4096x128 .f32) (main_arg1 : FVec F S32x4096x128 .f32) (main_arg2 : IVec S32 32) : IVec S_ 1 :=
  let main_v0 : FVec F S32x4096x128 .f32 := Host.absf main_arg0
  let main_cst : FVec F S_ .f32 := constant S_ .f32 0x7F800000#32
  let main_v1 : FVec F S32x4096x128 .f32 := broadcastInDim S32x4096x128 ![] bcast_S_S32x4096x128 main_cst
  let main_v2 : IVec S32x4096x128 1 := cmpf .olt main_v0 main_v1
  let main_c : IVec S_ 1 := constantI S_ 1 1#1
  let main_v3 : IVec S_ 1 := (fun x v => Host.reduce IntOp.andi x v reducesTo_S32x4096x128_S_d0_1_2 h_S_) main_v2 main_c
  let main_v4 : FVec F S32x4096x128 .f32 := Host.absf main_arg1
  let main_cst_0 : FVec F S_ .f32 := constant S_ .f32 0x7F800000#32
  let main_v5 : FVec F S32x4096x128 .f32 := broadcastInDim S32x4096x128 ![] bcast_S_S32x4096x128 main_cst_0
  let main_v6 : IVec S32x4096x128 1 := cmpf .olt main_v4 main_v5
  let main_c_1 : IVec S_ 1 := constantI S_ 1 1#1
  let main_v7 : IVec S_ 1 := (fun x v => Host.reduce IntOp.andi x v reducesTo_S32x4096x128_S_d0_1_2 h_S_) main_v6 main_c_1
  let main_v8 : IVec S_ 1 := andi main_v3 main_v7
  let main_c_2 : IVec S_ 32 := constantI S_ 32 4096#32
  let main_v9 : IVec S32 32 := broadcastInDim S32 ![] bcast_S_S32 main_c_2
  let main_v10 : IVec S32 1 := cmpi .sle main_arg2 main_v9
  let main_c_3 : IVec S_ 1 := constantI S_ 1 1#1
  let main_v11 : IVec S_ 1 := (fun x v => Host.reduce IntOp.andi x v reducesTo_S32_S_d0 h_S_) main_v10 main_c_3
  let main_v12 : IVec S_ 1 := andi main_v8 main_v11
  main_v12
-- ==== Kernel.lean ====
abbrev S32x4096x128 : Shape := ⟨3, ![32, 4096, 128]⟩
abbrev S32 : Shape := ⟨1, ![32]⟩
abbrev S32x1 : Shape := ⟨2, ![32, 1]⟩
abbrev S32x128 : Shape := ⟨2, ![32, 128]⟩
abbrev S16x256x128 : Shape := ⟨3, ![16, 256, 128]⟩
abbrev S16x1 : Shape := ⟨2, ![16, 1]⟩
abbrev S16x128 : Shape := ⟨2, ![16, 128]⟩
abbrev S16x1x1 : Shape := ⟨3, ![16, 1, 1]⟩
abbrev S_ : Shape := ⟨0, ![]⟩

abbrev nBuf : Space → Nat
  | .hbm => 45
  | .vmem => 16
  | .smem => 0
  | _ => 0

abbrev bufTy : (tb : Table) → Fin (tcTables nBuf tb) → BufTy
  | .hbm, ⟨0, _⟩ => ⟨S32x4096x128, .f32⟩
  | .hbm, ⟨1, _⟩ => ⟨S32x4096x128, .f32⟩
  | .hbm, ⟨2, _⟩ => ⟨S32, .i32⟩
  | .hbm, ⟨3, _⟩ => ⟨S32x1, .i32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x128, .f32⟩
  | .hbm, ⟨14, _⟩ => ⟨S32x128, .f32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .f32⟩
  | .hbm, ⟨19, _⟩ => ⟨S32x128, .f32⟩
  | .hbm, ⟨20, _⟩ => ⟨S_, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x128, .f32⟩
  | .hbm, ⟨31, _⟩ => ⟨S_, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S16x256x128, .f32⟩
  | .local _ .vmem, ⟨1, _⟩ => ⟨S16x256x128, .f32⟩
  | .local _ .vmem, ⟨2, _⟩ => ⟨S16x256x128, .f32⟩
  | .local _ .vmem, ⟨3, _⟩ => ⟨S16x256x128, .f32⟩
  | .local _ .vmem, ⟨4, _⟩ => ⟨S16x1, .i32⟩
  | .local _ .vmem, ⟨5, _⟩ => ⟨S16x1, .i32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S32_S32x1 : S32.ShapeCasts S32x1
  inb_S16x128_S16x128_0_0 : ∀ a, (![0, 0] : Fin 2 → Nat) a + S16x128.size a ≤ S16x128.size a
  h_S16x128 : 0 < S16x128.numel
  inb_S16x256x128_S16x256x128_0_0_0 : ∀ a, (![0, 0, 0] : Fin 3 → Nat) a + S16x256x128.size a ≤ S16x256x128.size a
  h_S16x256x128 : 0 < S16x256x128.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x128_S16x128 : S16x128.ShapeCasts S16x128
  reduces_S16x256x128_S16x128 : S16x256x128.Reduces [1] S16x128
  iota_S16x256x128_d1_w32 : S16x256x128.Iotas .tc 32 [1]
  shapeCasts_S16x1_S16x1x1 : S16x1.ShapeCasts S16x1x1
  natLt_1_32 : 1 < 32
  broadcasts_S16x1x1_S16x256x128 : S16x1x1.Broadcasts S16x256x128
  reducesTo_S32x128_S_d0_1 : S32x128.ReducesTo [0, 1] S_
  h_S_ : 0 < S_.numel
  bcast_S_S32 : S_.BroadcastsInDim S32 (![] : Fin 0 → Fin S32.rank)
  reducesTo_S32x128_S32_d1 : S32x128.ReducesTo [1] S32
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x128.size a ≤ S32x4096x128.size a
  hwx0_0 : ∀ i : grid0.Coords, EltTy.bits .f32 = 32 ∨ (Rect.block (s := S32x4096x128) S16x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x128.size a ≤ S32x4096x128.size a
  hwx0_1 : ∀ i : grid0.Coords, EltTy.bits .f32 = 32 ∨ (Rect.block (s := S32x4096x128) S16x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S32x1.size a
  hwx0_2 : ∀ i : grid0.Coords, EltTy.bits .i32 = 32 ∨ (Rect.block (s := S32x1) S16x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S32x128.size a
  hwx0_3 : ∀ i : grid0.Coords, EltTy.bits .f32 = 32 ∨ (Rect.block (s := S32x128) S16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S32x128.size a
  hwx0_4 : ∀ i : grid0.Coords, EltTy.bits .f32 = 32 ∨ (Rect.block (s := S32x128) S16x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S32x128.size a
  hwx0_5 : ∀ i : grid0.Coords, EltTy.bits .f32 = 32 ∨ (Rect.block (s := S32x128) S16x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S32x128.size a
  hwx0_6 : ∀ i : grid0.Coords, EltTy.bits .f32 = 32 ∨ (Rect.block (s := S32x128) S16x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S32x128.size a
  hwx0_7 : ∀ i : grid0.Coords, EltTy.bits .f32 = 32 ∨ (Rect.block (s := S32x128) S16x128.size (cc0_transform_7 i) (hinb0_7 i)).WholeWords (EltTy.packing .f32)

variable [Facts₀]

abbrev win0_0 : Pipeline.Window sig grid0 :=
  Pipeline.Window.ofSpec (Memref.whole main_arg0) S16x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S16x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S16x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S16x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_3) S16x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_4) S16x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x4096x128 : Shape := ⟨3, ![32, 4096, 128]⟩
abbrev S32 : Shape := ⟨1, ![32]⟩
abbrev S_ : Shape := ⟨0, ![]⟩
abbrev S4096 : Shape := ⟨1, ![4096]⟩
abbrev S1x4096 : Shape := ⟨2, ![1, 4096]⟩
abbrev S32x1 : Shape := ⟨2, ![32, 1]⟩
abbrev S32x4096 : Shape := ⟨2, ![32, 4096]⟩
abbrev S32x4096x1 : Shape := ⟨3, ![32, 4096, 1]⟩
abbrev S32x128 : Shape := ⟨2, ![32, 128]⟩

abbrev nBuf : Space → Nat
  | .hbm => 100
  | .vmem => 0
  | .smem => 0
  | _ => 0

abbrev bufTy : (tb : Table) → Fin (tcTables nBuf tb) → BufTy
  | .hbm, ⟨0, _⟩ => ⟨S32x4096x128, .f32⟩
  | .hbm, ⟨1, _⟩ => ⟨S32x4096x128, .f32⟩
  | .hbm, ⟨2, _⟩ => ⟨S32, .i32⟩
  | .hbm, ⟨3, _⟩ => ⟨S32x4096x128, .f32⟩
  | .hbm, ⟨4, _⟩ => ⟨S32x4096x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096, .i32⟩
  | .hbm, ⟨10, _⟩ => ⟨S1x4096, .i32⟩
  | .hbm, ⟨11, _⟩ => ⟨S32x1, .i32⟩
  | .hbm, ⟨12, _⟩ => ⟨S_, .i32⟩
  | .hbm, ⟨13, _⟩ => ⟨S_, .i32⟩
  | .hbm, ⟨14, _⟩ => ⟨S32x1, .i32⟩
  | .hbm, ⟨15, _⟩ => ⟨S32x1, .i32⟩
  | .hbm, ⟨16, _⟩ => ⟨S32x1, .i32⟩
  | .hbm, ⟨17, _⟩ => ⟨S_, .i32⟩
  | .hbm, ⟨18, _⟩ => ⟨S32x1, .i32⟩
  | .hbm, ⟨19, _⟩ => ⟨S32x1, .i1⟩
  | .hbm, ⟨20, _⟩ => ⟨S32x1, .i32⟩
  | .hbm, ⟨21, _⟩ => ⟨S32x1, .i32⟩
  | .hbm, ⟨22, _⟩ => ⟨S_, .i32⟩
  | .hbm, ⟨23, _⟩ => ⟨S32x1, .i32⟩
  | .hbm, ⟨24, _⟩ => ⟨S32x1, .i1⟩
  | .hbm, ⟨25, _⟩ => ⟨S32x1, .i1⟩
  | .hbm, ⟨26, _⟩ => ⟨S_, .i32⟩
  | .hbm, ⟨27, _⟩ => ⟨S32x1, .i32⟩
  | .hbm, ⟨28, _⟩ => ⟨S32x1, .i32⟩
  | .hbm, ⟨29, _⟩ => ⟨S32x1, .i32⟩
  | .hbm, ⟨30, _⟩ => ⟨S32x4096, .i32⟩
  | .hbm, ⟨31, _⟩ => ⟨S32x4096, .i32⟩
  | .hbm, ⟨32, _⟩ => ⟨S32x4096, .i1⟩
  | .hbm, ⟨33, _⟩ => ⟨S32x4096, .i32⟩
  | .hbm, ⟨34, _⟩ => ⟨S32x4096, .i32⟩
  | .hbm, ⟨35, _⟩ => ⟨S32x4096, .i1⟩
  | .hbm, ⟨36, _⟩ => ⟨S32x4096, .i32⟩
  | .hbm, ⟨37, _⟩ => ⟨S32x4096, .i32⟩
  | .hbm, ⟨38, _⟩ => ⟨S32x4096, .i1⟩
  | .hbm, ⟨39, _⟩ => ⟨S32x4096, .i1⟩
  | .hbm, ⟨40, _⟩ => ⟨S32x4096x1, .i1⟩
  | .hbm, ⟨41, _⟩ => ⟨S_, .f32⟩
  | .hbm, ⟨42, _⟩ => ⟨S32x4096x128, .i1⟩
  | .hbm, ⟨43, _⟩ => ⟨S32x4096x128, .f32⟩
  | .hbm, ⟨44, _⟩ => ⟨S32x4096x128, .f32⟩
  | .hbm, ⟨45, _⟩ => ⟨S_, .f32⟩
  | .hbm, ⟨46, _⟩ => ⟨S32x128, .f32⟩
  | .hbm, ⟨47, _⟩ => ⟨S32x4096x1, .i1⟩
  | .hbm, ⟨48, _⟩ => ⟨S_, .f32⟩
  | .hbm, ⟨49, _⟩ => ⟨S32x4096x128, .i1⟩
  | .hbm, ⟨50, _⟩ => ⟨S32x4096x128, .f32⟩
  | .hbm, ⟨51, _⟩ => ⟨S32x4096x128, .f32⟩
  | .hbm, ⟨52, _⟩ => ⟨S_, .f32⟩
  | .hbm, ⟨53, _⟩ => ⟨S32x128, .f32⟩
  | .hbm, ⟨54, _⟩ => ⟨S32x128, .f32⟩
  | .hbm, ⟨55, _⟩ => ⟨S32x4096x1, .i1⟩
  | .hbm, ⟨56, _⟩ => ⟨S_, .f32⟩
  | .hbm, ⟨57, _⟩ => ⟨S32x4096x128, .i1⟩
  | .hbm, ⟨58, _⟩ => ⟨S32x4096x128, .f32⟩
  | .hbm, ⟨59, _⟩ => ⟨S32x4096x128, .f32⟩
  | .hbm, ⟨60, _⟩ => ⟨S_, .f32⟩
  | .hbm, ⟨61, _⟩ => ⟨S32x128, .f32⟩
  | .hbm, ⟨62, _⟩ => ⟨S32x4096x1, .i1⟩
  | .hbm, ⟨63, _⟩ => ⟨S_, .f32⟩
  | .hbm, ⟨64, _⟩ => ⟨S32x4096x128, .i1⟩
  | .hbm, ⟨65, _⟩ => ⟨S32x4096x128, .f32⟩
  | .hbm, ⟨66, _⟩ => ⟨S32x4096x128, .f32⟩
  | .hbm, ⟨67, _⟩ => ⟨S_, .f32⟩
  | .hbm, ⟨68, _⟩ => ⟨S32x128, .f32⟩
  | .hbm, ⟨69, _⟩ => ⟨S32x128, .f32⟩
  | .hbm, ⟨70, _⟩ => ⟨S_, .i32⟩
  | .hbm, ⟨71, _⟩ => ⟨S32, .i32⟩
  | .hbm, ⟨72, _⟩ => ⟨S32, .i1⟩
  | .hbm, ⟨73, _⟩ => ⟨S32, .f32⟩
  | .hbm, ⟨74, _⟩ => ⟨S32x128, .f32⟩
  | .hbm, ⟨75, _⟩ => ⟨S_, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S32x128, .f32⟩
  | .hbm, ⟨86, _⟩ => ⟨S_, .f32⟩
  | .hbm, ⟨87, _⟩ => ⟨S32, .f32⟩
  | .hbm, ⟨88, _⟩ => ⟨S_, .f32⟩
  | .hbm, ⟨89, _⟩ => ⟨S32, .f32⟩
  | .hbm, ⟨90, _⟩ => ⟨S32, .f32⟩
  | .hbm, ⟨91, _⟩ => ⟨S32, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_call2_v0 : Ref sig .tc := ⟨.hbm, 49, rfl⟩
abbrev main_call2_v1 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_5 : Ref sig .tc := ⟨.hbm, 56, rfl⟩
abbrev main_call3_v0 : Ref sig .tc := ⟨.hbm, 57, rfl⟩
abbrev main_call3_v1 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_cst_7 : Ref sig .tc := ⟨.hbm, 63, rfl⟩
abbrev main_call4_v0 : Ref sig .tc := ⟨.hbm, 64, rfl⟩
abbrev main_call4_v1 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_c_9 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_10 : Ref sig .tc := ⟨.hbm, 75, rfl⟩
abbrev main_v36 : Ref sig .tc := ⟨.hbm, 76, rfl⟩
abbrev main_cst_11 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_12 : Ref sig .tc := ⟨.hbm, 81, rfl⟩
abbrev main_v40 : Ref sig .tc := ⟨.hbm, 82, rfl⟩
abbrev main_cst_13 : Ref sig .tc := ⟨.hbm, 83, rfl⟩
abbrev main_v41 : Ref sig .tc := ⟨.hbm, 84, rfl⟩
abbrev main_v42 : Ref sig .tc := ⟨.hbm, 85, rfl⟩
abbrev main_cst_14 : Ref sig .tc := ⟨.hbm, 86, rfl⟩
abbrev main_v43 : Ref sig .tc := ⟨.hbm, 87, rfl⟩
abbrev main_cst_15 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_16 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩

abbrev nD : Nat := 1
abbrev τ : Topo := Topo.v7x

variable {F : FTy → Type} [FloatOps F]

class Facts₀ : Prop where
  reducesTo_S32x4096x128_S_d0_1_2 : S32x4096x128.ReducesTo [0, 1, 2] S_
  h_S_ : 0 < S_.numel
  bcast_S4096_S1x4096_1 : S4096.BroadcastsInDim S1x4096 (![1] : Fin 1 → Fin S1x4096.rank)
  bcast_S32_S32x1_0 : S32.BroadcastsInDim S32x1 (![0] : Fin 1 → Fin S32x1.rank)
  bcast_S_S32x1 : S_.BroadcastsInDim S32x1 (![] : Fin 0 → Fin S32x1.rank)
  bcast_S1x4096_S32x4096_0_1 : S1x4096.BroadcastsInDim S32x4096 (![0, 1] : Fin 2 → Fin S32x4096.rank)
  bcast_S32x1_S32x4096_0_1 : S32x1.BroadcastsInDim S32x4096 (![0, 1] : Fin 2 → Fin S32x4096.rank)
  bcast_S32x4096_S32x4096x1_0_1 : S32x4096.BroadcastsInDim S32x4096x1 (![0, 1] : Fin 2 → Fin S32x4096x1.rank)
  bcast_S32x4096x1_S32x4096x128_0_1_2 : S32x4096x1.BroadcastsInDim S32x4096x128 (![0, 1, 2] : Fin 3 → Fin S32x4096x128.rank)
  bcast_S_S32x4096x128 : S_.BroadcastsInDim S32x4096x128 (![] : Fin 0 → Fin S32x4096x128.rank)
  reducesTo_S32x4096x128_S32x128_d1 : S32x4096x128.ReducesTo [1] S32x128
  bcast_S_S32 : S_.BroadcastsInDim S32 (![] : Fin 0 → Fin S32.rank)
  reducesTo_S32x128_S32_d1 : S32x128.ReducesTo [1] S32
  reducesTo_S32_S_d0 : S32.ReducesTo [0] S_

variable [Facts₀]

class Facts : Prop extends Facts₀ where

variable [Facts]
-- ==== Proof.KPieces.lean ====
import proofs.«118518_j39745627357645_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen

variable {F : FTy → Type} [FloatOps F]

/-! The contents each case of the body leaves in the five output blocks, as the body's own arithmetic
    of the blocks it loaded: at the first time tile of a batch tile the running values start from the
    stored fills (zero for the sum of squares, the finite fill for the four maxima); at a later tile they
    start from what the tile before left. -/

theorem hz2 : (![0, 0] : Fin 2 → Nat) = fun _ => 0 := funext fun a => by fin_cases a <;> rfl
theorem hz3 : (![0, 0, 0] : Fin 3 → Nat) = fun _ => 0 := funext fun a => by fin_cases a <;> rfl

/-- A later time tile, output 3: one covering store of the update of the carried block. -/
theorem out_B_3 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : ¬cond0_0 i)
    (x0 x1 : Vec F S16x256x128 .f32) (x2 : Vec F S16x1 .i32) (xo3 xo4 xo5 xo6 xo7 : Vec F S16x128 .f32) :
    out0_B_3 c i a2 h2 a3 h3 a4 h4 a5 h5 a6 h6 a7 h7 a8 h8 a9 h9 hc x0 x1 x2 xo3 xo4 xo5 xo6 xo7 = k0_pay7 x0 x1 xo3 := by
  unfold out0_B_3
  rw [View.read_writes_eq_canon _ _ _ (cover0_B_3 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

/-- The first time tile, output 3: the fill is stored, read back, and updated. -/
theorem out_A_3 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : cond0_0 i)
    (x0 x1 : Vec F S16x256x128 .f32) (x2 : Vec F S16x1 .i32) :
    out0_A_3 c i a2 h2 a3 h3 a4 h4 a5 h5 a6 h6 a7 h7 a8 h8 a9 h9 hc x0 x1 x2 = k0_pay7 x0 x1 (k0_pay2 (F := F)) := by
  unfold out0_A_3
  rw [View.read_writes_eq_canon _ _ _ (cover0_A_3 c i a2 h2 a3 h3 a4 h4 a5 h5 a6 h6 a7 h7 a8 h8 a9 h9 hc x0 x1 x2)]
  unfold kernelRun0_A
  dsimp only
  sl_unfold_words
  rw [View.canon_cons_unit_zero (S := S16x128) hz2, View.readCov_unit_zero (S := S16x128) _ hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

/-- A later time tile, output 4: one covering store of the update of the carried block. -/
theorem out_B_4 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : ¬cond0_0 i)
    (x0 x1 : Vec F S16x256x128 .f32) (x2 : Vec F S16x1 .i32) (xo3 xo4 xo5 xo6 xo7 : Vec F S16x128 .f32) :
    out0_B_4 c i a2 h2 a3 h3 a4 h4 a5 h5 a6 h6 a7 h7 a8 h8 a9 h9 hc x0 x1 x2 xo3 xo4 xo5 xo6 xo7 = k0_pay15 x0 (k0_pay8 i) (k0_pay9 x2) 2#32 (k0_pay10 x2) (k0_pay11 x2) xo4 := by
  unfold out0_B_4
  rw [View.read_writes_eq_canon _ _ _ (cover0_B_4 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

/-- The first time tile, output 4: the fill is stored, read back, and updated. -/
theorem out_A_4 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : cond0_0 i)
    (x0 x1 : Vec F S16x256x128 .f32) (x2 : Vec F S16x1 .i32) :
    out0_A_4 c i a2 h2 a3 h3 a4 h4 a5 h5 a6 h6 a7 h7 a8 h8 a9 h9 hc x0 x1 x2 = k0_pay15 x0 (k0_pay8 i) (k0_pay9 x2) 2#32 (k0_pay10 x2) (k0_pay11 x2) (k0_pay3 (F := F)) := by
  unfold out0_A_4
  rw [View.read_writes_eq_canon _ _ _ (cover0_A_4 c i a2 h2 a3 h3 a4 h4 a5 h5 a6 h6 a7 h7 a8 h8 a9 h9 hc x0 x1 x2)]
  unfold kernelRun0_A
  dsimp only
  sl_unfold_words
  rw [View.canon_cons_unit_zero (S := S16x128) hz2, View.readCov_unit_zero (S := S16x128) _ hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

/-- A later time tile, output 5: one covering store of the update of the carried block. -/
theorem out_B_5 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : ¬cond0_0 i)
    (x0 x1 : Vec F S16x256x128 .f32) (x2 : Vec F S16x1 .i32) (xo3 xo4 xo5 xo6 xo7 : Vec F S16x128 .f32) :
    out0_B_5 c i a2 h2 a3 h3 a4 h4 a5 h5 a6 h6 a7 h7 a8 h8 a9 h9 hc x0 x1 x2 xo3 xo4 xo5 xo6 xo7 = k0_pay16 x1 (k0_pay8 i) (k0_pay9 x2) 2#32 (k0_pay10 x2) (k0_pay11 x2) xo5 := by
  unfold out0_B_5
  rw [View.read_writes_eq_canon _ _ _ (cover0_B_5 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

/-- The first time tile, output 5: the fill is stored, read back, and updated. -/
theorem out_A_5 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : cond0_0 i)
    (x0 x1 : Vec F S16x256x128 .f32) (x2 : Vec F S16x1 .i32) :
    out0_A_5 c i a2 h2 a3 h3 a4 h4 a5 h5 a6 h6 a7 h7 a8 h8 a9 h9 hc x0 x1 x2 = k0_pay16 x1 (k0_pay8 i) (k0_pay9 x2) 2#32 (k0_pay10 x2) (k0_pay11 x2) (k0_pay4 (F := F)) := by
  unfold out0_A_5
  rw [View.read_writes_eq_canon _ _ _ (cover0_A_5 c i a2 h2 a3 h3 a4 h4 a5 h5 a6 h6 a7 h7 a8 h8 a9 h9 hc x0 x1 x2)]
  unfold kernelRun0_A
  dsimp only
  sl_unfold_words
  rw [View.canon_cons_unit_zero (S := S16x128) hz2, View.readCov_unit_zero (S := S16x128) _ hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

/-- A later time tile, output 6: one covering store of the update of the carried block. -/
theorem out_B_6 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : ¬cond0_0 i)
    (x0 x1 : Vec F S16x256x128 .f32) (x2 : Vec F S16x1 .i32) (xo3 xo4 xo5 xo6 xo7 : Vec F S16x128 .f32) :
    out0_B_6 c i a2 h2 a3 h3 a4 h4 a5 h5 a6 h6 a7 h7 a8 h8 a9 h9 hc x0 x1 x2 xo3 xo4 xo5 xo6 xo7 = k0_pay17 x0 (k0_pay8 i) (k0_pay9 x2) 2#32 (k0_pay10 x2) (k0_pay11 x2) xo6 := by
  unfold out0_B_6
  rw [View.read_writes_eq_canon _ _ _ (cover0_B_6 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

/-- The first time tile, output 6: the fill is stored, read back, and updated. -/
theorem out_A_6 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : cond0_0 i)
    (x0 x1 : Vec F S16x256x128 .f32) (x2 : Vec F S16x1 .i32) :
    out0_A_6 c i a2 h2 a3 h3 a4 h4 a5 h5 a6 h6 a7 h7 a8 h8 a9 h9 hc x0 x1 x2 = k0_pay17 x0 (k0_pay8 i) (k0_pay9 x2) 2#32 (k0_pay10 x2) (k0_pay11 x2) (k0_pay5 (F := F)) := by
  unfold out0_A_6
  rw [View.read_writes_eq_canon _ _ _ (cover0_A_6 c i a2 h2 a3 h3 a4 h4 a5 h5 a6 h6 a7 h7 a8 h8 a9 h9 hc x0 x1 x2)]
  unfold kernelRun0_A
  dsimp only
  sl_unfold_words
  rw [View.canon_cons_unit_zero (S := S16x128) hz2, View.readCov_unit_zero (S := S16x128) _ hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

/-- A later time tile, output 7: one covering store of the update of the carried block. -/
theorem out_B_7 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : ¬cond0_0 i)
    (x0 x1 : Vec F S16x256x128 .f32) (x2 : Vec F S16x1 .i32) (xo3 xo4 xo5 xo6 xo7 : Vec F S16x128 .f32) :
    out0_B_7 c i a2 h2 a3 h3 a4 h4 a5 h5 a6 h6 a7 h7 a8 h8 a9 h9 hc x0 x1 x2 xo3 xo4 xo5 xo6 xo7 = k0_pay1 x1 (k0_pay14 (k0_pay8 i) (k0_pay9 x2) 2#32 (k0_pay10 x2) (k0_pay11 x2)) (Scalar.ofBits .f32 0xF149F2CA#32) xo7 := by
  unfold out0_B_7
  rw [View.read_writes_eq_canon _ _ _ (cover0_B_7 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

/-- The first time tile, output 7: the fill is stored, read back, and updated. -/
theorem out_A_7 (c : Dev nD) (i : grid0.Coords) (a2 : Memref sig .tc .vmem S16x256x128 .f32) (h2 : a2.IsWhole) (a3 : Memref sig .tc .vmem S16x256x128 .f32) (h3 : a3.IsWhole) (a4 : Memref sig .tc .vmem S16x1 .i32) (h4 : a4.IsWhole) (a5 : Memref sig .tc .vmem S16x128 .f32) (h5 : a5.IsWhole) (a6 : Memref sig .tc .vmem S16x128 .f32) (h6 : a6.IsWhole) (a7 : Memref sig .tc .vmem S16x128 .f32) (h7 : a7.IsWhole) (a8 : Memref sig .tc .vmem S16x128 .f32) (h8 : a8.IsWhole) (a9 : Memref sig .tc .vmem S16x128 .f32) (h9 : a9.IsWhole) (hc : cond0_0 i)
    (x0 x1 : Vec F S16x256x128 .f32) (x2 : Vec F S16x1 .i32) :
    out0_A_7 c i a2 h2 a3 h3 a4 h4 a5 h5 a6 h6 a7 h7 a8 h8 a9 h9 hc x0 x1 x2 = k0_pay1 x1 (k0_pay14 (k0_pay8 i) (k0_pay9 x2) 2#32 (k0_pay10 x2) (k0_pay11 x2)) (Scalar.ofBits .f32 0xF149F2CA#32) (k0_pay6 (F := F)) := by
  unfold out0_A_7
  rw [View.read_writes_eq_canon _ _ _ (cover0_A_7 c i a2 h2 a3 h3 a4 h4 a5 h5 a6 h6 a7 h7 a8 h8 a9 h9 hc x0 x1 x2)]
  unfold kernelRun0_A
  dsimp only
  sl_unfold_words
  rw [View.canon_cons_unit_zero (S := S16x128) hz2, View.readCov_unit_zero (S := S16x128) _ hz2]
  simp only [View.readAt_eq_ld, h2.read_unread, h3.read_unread, h4.read_unread, h5.read_unread, h6.read_unread, h7.read_unread, h8.read_unread, h9.read_unread, View.ld_unit_zero (S := S16x256x128) hz3, View.ld_unit_zero (S := S16x128) hz2, View.ld_unit_zero (S := S16x1) hz2]

end Cert.KernelIdeal.SegValue
end
-- ==== Proof.KAcc1.lean ====
import proofs.«118518_j39745627357645_2_alg».proof.Proof.Gen.KernelIdeal.Frame
import proofs.«118518_j39745627357645_2_alg».proof.Proof.KPieces
import Idealize.ShloMosaic.Lib.Pipeline.Value
import Idealize.ShloMosaic.Lib.Tactic
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen

variable {F : FTy → Type} [FloatOps F]

variable (m : (ℓ : Loc nD τ sig) → Buf (Elt F) ℓ)

/-! What each output block holds after a grid point, as the body's arithmetic of the point's tiles: from the fills
    at the first time tile of a batch tile, from what the point before left at a later one. -/

theorem at_A_3 (c : Dev nD) (t : Fin cfg0.N) (h0 : t.val % 16 = 0) :
    (outsAt0 m c t.val t.isLt).1 = k0_pay7 (iblk m c 0 t) (iblk m c 1 t) (k0_pay2 (F := F)) :=
  (congrArg (fun p => p.1) (outsAt0_A m c t h0)).trans
    (out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))

theorem at_B_3 (c : Dev nD) (t : Fin cfg0.N) (h0 : ¬t.val % 16 = 0) :
    (outsAt0 m c t.val t.isLt).1 = k0_pay7 (iblk m c 0 t) (iblk m c 1 t) (outsAt0 m c (t.val - 1) (Nat.lt_of_le_of_lt (Nat.sub_le _ _) t.isLt)).1 :=
  (congrArg (fun p => p.1) (outsAt0_B m c t h0)).trans
    (out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem at_A_4 (c : Dev nD) (t : Fin cfg0.N) (h0 : t.val % 16 = 0) :
    (outsAt0 m c t.val t.isLt).2.1 = k0_pay15 (iblk m c 0 t) (k0_pay8 (grid0.coords t)) (k0_pay9 (iblk m c 2 t)) 2#32 (k0_pay10 (iblk m c 2 t)) (k0_pay11 (iblk m c 2 t)) (k0_pay3 (F := F)) :=
  (congrArg (fun p => p.2.1) (outsAt0_A m c t h0)).trans
    (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))

theorem at_B_4 (c : Dev nD) (t : Fin cfg0.N) (h0 : ¬t.val % 16 = 0) :
    (outsAt0 m c t.val t.isLt).2.1 = k0_pay15 (iblk m c 0 t) (k0_pay8 (grid0.coords t)) (k0_pay9 (iblk m c 2 t)) 2#32 (k0_pay10 (iblk m c 2 t)) (k0_pay11 (iblk m c 2 t)) (outsAt0 m c (t.val - 1) (Nat.lt_of_le_of_lt (Nat.sub_le _ _) t.isLt)).2.1 :=
  (congrArg (fun p => p.2.1) (outsAt0_B m c t h0)).trans
    (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem at_A_5 (c : Dev nD) (t : Fin cfg0.N) (h0 : t.val % 16 = 0) :
    (outsAt0 m c t.val t.isLt).2.2.1 = k0_pay16 (iblk m c 1 t) (k0_pay8 (grid0.coords t)) (k0_pay9 (iblk m c 2 t)) 2#32 (k0_pay10 (iblk m c 2 t)) (k0_pay11 (iblk m c 2 t)) (k0_pay4 (F := F)) :=
  (congrArg (fun p => p.2.2.1) (outsAt0_A m c t h0)).trans
    (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))

theorem at_B_5 (c : Dev nD) (t : Fin cfg0.N) (h0 : ¬t.val % 16 = 0) :
    (outsAt0 m c t.val t.isLt).2.2.1 = k0_pay16 (iblk m c 1 t) (k0_pay8 (grid0.coords t)) (k0_pay9 (iblk m c 2 t)) 2#32 (k0_pay10 (iblk m c 2 t)) (k0_pay11 (iblk m c 2 t)) (outsAt0 m c (t.val - 1) (Nat.lt_of_le_of_lt (Nat.sub_le _ _) t.isLt)).2.2.1 :=
  (congrArg (fun p => p.2.2.1) (outsAt0_B m c t h0)).trans
    (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem at_A_6 (c : Dev nD) (t : Fin cfg0.N) (h0 : t.val % 16 = 0) :
    (outsAt0 m c t.val t.isLt).2.2.2.1 = k0_pay17 (iblk m c 0 t) (k0_pay8 (grid0.coords t)) (k0_pay9 (iblk m c 2 t)) 2#32 (k0_pay10 (iblk m c 2 t)) (k0_pay11 (iblk m c 2 t)) (k0_pay5 (F := F)) :=
  (congrArg (fun p => p.2.2.2.1) (outsAt0_A m c t h0)).trans
    (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))

theorem at_B_6 (c : Dev nD) (t : Fin cfg0.N) (h0 : ¬t.val % 16 = 0) :
    (outsAt0 m c t.val t.isLt).2.2.2.1 = k0_pay17 (iblk m c 0 t) (k0_pay8 (grid0.coords t)) (k0_pay9 (iblk m c 2 t)) 2#32 (k0_pay10 (iblk m c 2 t)) (k0_pay11 (iblk m c 2 t)) (outsAt0 m c (t.val - 1) (Nat.lt_of_le_of_lt (Nat.sub_le _ _) t.isLt)).2.2.2.1 :=
  (congrArg (fun p => p.2.2.2.1) (outsAt0_B m c t h0)).trans
    (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem at_A_7 (c : Dev nD) (t : Fin cfg0.N) (h0 : t.val % 16 = 0) :
    (outsAt0 m c t.val t.isLt).2.2.2.2 = k0_pay1 (iblk m c 1 t) (k0_pay14 (k0_pay8 (grid0.coords t)) (k0_pay9 (iblk m c 2 t)) 2#32 (k0_pay10 (iblk m c 2 t)) (k0_pay11 (iblk m c 2 t))) (Scalar.ofBits .f32 0xF149F2CA#32) (k0_pay6 (F := F)) :=
  (congrArg (fun p => p.2.2.2.2) (outsAt0_A m c t h0)).trans
    (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))

theorem at_B_7 (c : Dev nD) (t : Fin cfg0.N) (h0 : ¬t.val % 16 = 0) :
    (outsAt0 m c t.val t.isLt).2.2.2.2 = k0_pay1 (iblk m c 1 t) (k0_pay14 (k0_pay8 (grid0.coords t)) (k0_pay9 (iblk m c 2 t)) 2#32 (k0_pay10 (iblk m c 2 t)) (k0_pay11 (iblk m c 2 t))) (Scalar.ofBits .f32 0xF149F2CA#32) (outsAt0 m c (t.val - 1) (Nat.lt_of_le_of_lt (Nat.sub_le _ _) t.isLt)).2.2.2.2 :=
  (congrArg (fun p => p.2.2.2.2) (outsAt0_B m c t h0)).trans
    (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

end Cert.KernelIdeal.SegValue
end
-- ==== Proof.FloorDiv.lean ====
/-
  Floor division of a signed 32-bit word by two, as each program spells it per element.

  Both compute the truncating quotient `q` and lower it by one when the operand's sign differs from the divisor's
  (the divisor's sign is `+1`) and the remainder is not zero. The host
  program takes the operand's sign by a three-way test, the kernel as the difference of two comparisons with zero.
-/
import Idealize.ShloMosaic.PureOps

namespace Cert.SegLoss

open Idealize.ShloMosaic

/-- The three-way sign of a word: `0`, `-1` or `1`. -/
def sgn3 (x : BitVec 32) : BitVec 32 := if x = 0 then 0 else if x.msb then -1 else 1

/-- The host program's `lengths // 2` on one word. -/
def halfR (x : BitVec 32) : BitVec 32 :=
  Scalar.select
    (IntOp.andi
      (IntOp.cmpi .ne (sgn3 x) (sgn3 2#32))
      (IntOp.cmpi .ne (IntOp.remsi .host x 2#32) 0#32))
    (IntOp.subi (IntOp.divsi .host x 2#32) 1#32)
    (IntOp.divsi .host x 2#32)

/-- The kernel's `lengths // 2` on one word. -/
def halfK (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 2#32 0#32)) (Scalar.extui (Scalar.cmpi .slt 2#32 0#32))))
      (IntOp.cmpi .ne (IntOp.remsi .vector x 2#32) 0#32))
    (IntOp.subi (IntOp.divsi .vector x 2#32) 1#32)
    (IntOp.divsi .vector x 2#32)

end Cert.SegLoss
-- ==== Proof.KPay.lean ====
/-
  The body's arithmetic read at one entry, on the extended reals.

  A tile of the body holds 16 batch rows, 256 time positions and 128 features. At batch row `r` and feature `d`:
  the sum-of-squares block is raised by the sum over the tile's 256 positions of the squared difference; each of the
  four running maxima is raised to the maximum of its old value and of the tile's masked entries (an entry outside
  the segment counts as the finite fill); the time position of row `j` of tile `tt` is `j + 256·tt`, and the
  segment bounds are the row's length and its floor half.
-/
import proofs.«118518_j39745627357645_2_alg».proof.Proof.Gen.KernelIdeal.Skeleton
import proofs.«118518_j39745627357645_2_alg».proof.Proof.FloorDiv
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.SegValue

open Cert.KernelIdeal Cert.KernelIdeal.Gen Cert.SegLoss

variable {F : FTy → Type} [FloatOps F]

/-- The finite fill, as the body spells it. -/
abbrev fillBits : BitVec 32 := 0xF149F2CA#32

/-- Reducing the middle axis: the index inserted at (r, d) and position j is (r, j, d). -/
theorem lift_eq (r : Fin 16) (d : Fin 128) (j : Fin 256) :
    reduces_S16x256x128_S16x128.lift (ix2 r d) j = ix3 r j d := by
  funext a; apply Fin.ext
  match a with
  | ⟨0, _⟩ => rfl
  | ⟨1, _⟩ => rfl
  | ⟨2, _⟩ => rfl

/-- The sum-of-squares update at (r, d): the carried value plus the tile's 256 squared differences. -/
theorem pay7_apply (x0 x1 : FVec Ideal S16x256x128 .f32) (prev : FVec Ideal S16x128 .f32) (r : Fin 16) (d : Fin 128) :
    k0_pay7 (F := Ideal) x0 x1 prev (ix2 r d)
      = prev (ix2 r d) + ∑ j : Fin 256, (x0 (ix3 r j d) - x1 (ix3 r j d)) * (x0 (ix3 r j d) - x1 (ix3 r j d)) := by
  unfold k0_pay7
  show shapeCast S16x128 prev shapeCasts_S16x128_S16x128 (ix2 r d)
      + multiReduction (F := Ideal) .add [1] S16x128 (mulf (subf x0 x1) (subf x0 x1)) 0x00000000#32 reduces_S16x256x128_S16x128 (.inl rfl) rfl (ix2 r d) = _
  rw [shapeCast_self]
  refine congrArg (prev (ix2 r d) + ·) ?_
  refine (Ideal.multiReduction_add_single (mulf (subf x0 x1) (subf x0 x1)) 0x00000000#32 reduces_S16x256x128_S16x128 (.inl rfl) rfl (ix2 r d)).trans ?_
  refine Finset.sum_congr rfl fun j _ => ?_
  exact (congrArg (mulf (subf x0 x1) (subf x0 x1)) (lift_eq r d j)).trans rfl

/-- One running maximum's update, as the body writes it for any mask and any of the two input tiles. -/
def segUpd (mask : IVec S16x256x128 1) (x : Vec F S16x256x128 .f32) (prev : Vec F S16x128 .f32) : FVec F S16x128 .f32 :=
  maximumf (shapeCast S16x128 prev shapeCasts_S16x128_S16x128)
    (multiReduction .maximumf [1] S16x128 (select mask x (broadcast S16x256x128 (Scalar.ofBits .f32 fillBits)))
      0xFF800000#32 reduces_S16x256x128_S16x128 (.inl rfl) rfl)

/-- At (r, d): the maximum of the carried value and of the tile's 256 masked entries. -/
theorem segUpd_apply (mask : IVec S16x256x128 1) (x : FVec Ideal S16x256x128 .f32) (prev : FVec Ideal S16x128 .f32)
    (r : Fin 16) (d : Fin 128) :
    segUpd (F := Ideal) mask x prev (ix2 r d)
      = max (prev (ix2 r d))
          ((Finset.univ : Finset (Fin 256)).fold max (Ideal.ofBits .f32 0xFF800000#32)
            (fun j => if mask (ix3 r j d) = 1 then x (ix3 r j d) else Ideal.ofBits .f32 fillBits)) := by
  unfold segUpd
  show max (shapeCast S16x128 prev shapeCasts_S16x128_S16x128 (ix2 r d))
      (multiReduction (F := Ideal) .maximumf [1] S16x128 (select mask x (broadcast S16x256x128 (Scalar.ofBits (F := Ideal) .f32 fillBits)))
        0xFF800000#32 reduces_S16x256x128_S16x128 (.inl rfl) rfl (ix2 r d)) = _
  rw [shapeCast_self]
  refine congrArg (max (prev (ix2 r d))) ?_
  refine (Ideal.multiReduction_maximumf_single (select mask x (broadcast S16x256x128 (Scalar.ofBits (F := Ideal) .f32 fillBits)))
    0xFF800000#32 reduces_S16x256x128_S16x128 (.inl rfl) rfl (ix2 r d)).trans ?_
  refine congrArg (Finset.univ.fold max _) (funext fun j => ?_)
  exact (congrArg (select mask x (broadcast S16x256x128 (Scalar.ofBits (F := Ideal) .f32 fillBits))) (lift_eq r d j)).trans rfl

theorem pay15_eq (x0 : Vec F S16x256x128 .f32) (v17 : IVec S16x256x128 32) (v18 : IVec S16x1x1 32) (c2 : BitVec 32)
    (v20 : IVec S16x1x1 32) (v34 : IVec S16x1x1 1) (prev : Vec F S16x128 .f32) :
    k0_pay15 x0 v17 v18 c2 v20 v34 prev = segUpd (k0_pay13 v17 v18 c2 v20 v34) x0 prev := rfl
theorem pay16_eq (x1 : Vec F S16x256x128 .f32) (v17 : IVec S16x256x128 32) (v18 : IVec S16x1x1 32) (c2 : BitVec 32)
    (v20 : IVec S16x1x1 32) (v34 : IVec S16x1x1 1) (prev : Vec F S16x128 .f32) :
    k0_pay16 x1 v17 v18 c2 v20 v34 prev = segUpd (k0_pay13 v17 v18 c2 v20 v34) x1 prev := rfl
theorem pay17_eq (x0 : Vec F S16x256x128 .f32) (v17 : IVec S16x256x128 32) (v18 : IVec S16x1x1 32) (c2 : BitVec 32)
    (v20 : IVec S16x1x1 32) (v34 : IVec S16x1x1 1) (prev : Vec F S16x128 .f32) :
    k0_pay17 x0 v17 v18 c2 v20 v34 prev = segUpd (k0_pay14 v17 v18 c2 v20 v34) x0 prev := rfl
theorem pay1_eq (x1 : Vec F S16x256x128 .f32) (v49 : IVec S16x256x128 1) (prev : Vec F S16x128 .f32) :
    k0_pay1 x1 v49 (Scalar.ofBits .f32 fillBits) prev = segUpd v49 x1 prev := rfl

/-! ## The masks -/

/-- The time position of row `j` of the tile numbered `tt` along time. -/
def posK (tt : ℕ) (j : Fin 256) : BitVec 32 :=
  IntOp.addi (BitVec.ofNat 32 j.val) (Scalar.muli (BitVec.ofNat 32 tt) 256#32)

theorem pay8_apply (i : grid0.Coords) (r : Fin 16) (j : Fin 256) (d : Fin 128) :
    k0_pay8 i (ix3 r j d) = posK (i 1).val j := by
  unfold k0_pay8
  show IntOp.addi (iota .tc S16x256x128 32 [1] iota_S16x256x128_d1_w32 (ix3 r j d)) _ = _
  rw [iota_single_apply]
  rfl

/-- A per-row word spread over the tile reads the row's word. -/
theorem spread_apply {w : ℕ} (v : IVec S16x1x1 w) (r : Fin 16) (j : Fin 256) (d : Fin 128) :
    broadcastTo S16x256x128 v broadcasts_S16x1x1_S16x256x128 (ix3 r j d) = v (ix3 r 0 0) :=
  broadcastTo_apply v _ (ix3 r j d) (ix3 r 0 0) (fun a => by
    match a with
    | ⟨0, _⟩ => rfl
    | ⟨1, _⟩ => rfl
    | ⟨2, _⟩ => rfl)

/-- The lengths column viewed with two unit axes reads the row's length. -/
theorem pay9_apply (x2 : Vec F S16x1 .i32) (r : Fin 16) : k0_pay9 x2 (ix3 r 0 0) = x2 (ix2 r 0) := by
  unfold k0_pay9
  rw [shapeCast_self]
  exact shapeCast_apply x2 _ (ix3 r 0 0) (ix2 r 0) (by
    rw [Shape.rowMajor_val_two, Shape.rowMajor_val_three]
    show r.val * 1 + 0 = (r.val * 1 + 0) * 1 + 0
    omega)

/-- The floor half of the row's length, as the body computes it. -/
theorem pay12_apply (x2 : Vec F S16x1 .i32) (r : Fin 16) :
    k0_pay12 (k0_pay9 x2) 2#32 (k0_pay10 x2) (k0_pay11 x2) (ix3 r 0 0) = halfK (x2 (ix2 r 0)) := by
  rw [← pay9_apply x2 r]
  rfl

/-- First-half segment: the position is below the floor half of the length. -/
theorem mask1_apply (i : grid0.Coords) (x2 : Vec F S16x1 .i32) (r : Fin 16) (j : Fin 256) (d : Fin 128) :
    k0_pay13 (k0_pay8 i) (k0_pay9 x2) 2#32 (k0_pay10 x2) (k0_pay11 x2) (ix3 r j d)
      = IntOp.cmpi .slt (posK (i 1).val j) (halfK (x2 (ix2 r 0))) := by
  unfold k0_pay13
  show IntOp.cmpi .slt (k0_pay8 i (ix3 r j d))
      (broadcastTo S16x256x128 (k0_pay12 (k0_pay9 x2) 2#32 (k0_pay10 x2) (k0_pay11 x2)) broadcasts_S16x1x1_S16x256x128 (ix3 r j d)) = _
  rw [spread_apply, pay8_apply, pay12_apply]

/-- Second-half segment: the position is at least the floor half and below the length. -/
theorem mask2_apply (i : grid0.Coords) (x2 : Vec F S16x1 .i32) (r : Fin 16) (j : Fin 256) (d : Fin 128) :
    k0_pay14 (k0_pay8 i) (k0_pay9 x2) 2#32 (k0_pay10 x2) (k0_pay11 x2) (ix3 r j d)
      = IntOp.andi (IntOp.cmpi .sge (posK (i 1).val j) (halfK (x2 (ix2 r 0))))
          (IntOp.cmpi .slt (posK (i 1).val j) (x2 (ix2 r 0))) := by
  unfold k0_pay14
  show IntOp.andi
      (IntOp.cmpi .sge (k0_pay8 i (ix3 r j d))
        (broadcastTo S16x256x128 (k0_pay12 (k0_pay9 x2) 2#32 (k0_pay10 x2) (k0_pay11 x2)) broadcasts_S16x1x1_S16x256x128 (ix3 r j d)))
      (IntOp.cmpi .slt (k0_pay8 i (ix3 r j d))
        (broadcastTo S16x256x128 (k0_pay9 x2) broadcasts_S16x1x1_S16x256x128 (ix3 r j d))) = _
  rw [spread_apply, spread_apply, pay8_apply, pay12_apply, pay9_apply]

end Cert.KernelIdeal.SegValue
end
-- ==== Proof.KBlocks.lean ====
import proofs.«118518_j39745627357645_2_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen

variable {F : FTy → Type} [FloatOps F]

open Idealize.ShloMosaic.ValueIdx
variable (m : (ℓ : Loc nD τ sig) → Buf (Elt F) ℓ)

/-! The tiles the body is handed at a grid point, read off the whole arrays. The grid runs over 2 batch tiles of
    16 rows and, inside each, 16 time tiles of 256 positions: point `16·b0 + k` is batch tile `b0`, time tile `k`. -/

/-- Where each input's tile sits, over the whole grid. -/
theorem idx_in : ∀ t : Fin cfg0.N, win0_0.index t 0 = t.val / 16 ∧ win0_0.index t 1 = t.val % 16 ∧ win0_0.index t 2 = 0
    ∧ win0_1.index t 0 = t.val / 16 ∧ win0_1.index t 1 = t.val % 16 ∧ win0_1.index t 2 = 0
    ∧ win0_2.index t 0 = t.val / 16 ∧ win0_2.index t 1 = 0 :=
  (by decide +kernel : ∀ t : Fin grid0.N, _)

/-- Input 0's tile at batch tile `b0` and time tile `k`: entry (r, j, d) is the array's entry (16·b0 + r, 256·k + j, d). -/
theorem iblk0_apply (c : Dev nD) (b0 k : ℕ) (hb0 : b0 < 2) (hk : k < 16) (h : 16 * b0 + k < cfg0.N)
    (r : Fin 16) (j : Fin 256) (d : Fin 128) :
    iblk m c 0 ⟨16 * b0 + k, h⟩ (ix3 r j d)
      = V m c main_arg0 (ix3 (⟨16 * b0 + r.val, by omega⟩ : Fin 32) (⟨256 * k + j.val, by omega⟩ : Fin 4096) d) := by
  have hi := idx_in ⟨16 * b0 + k, h⟩
  dsimp only at hi
  unfold iblk
  rw [View.read_apply]
  show V m c main_arg0 _ = V m c main_arg0 _
  refine congrArg (V m c main_arg0) (funext fun a => Fin.ext ?_)
  match a with
  | ⟨0, _⟩ =>
    show win0_0.index ⟨16 * b0 + k, h⟩ 0 * 16 + 1 * r.val = 16 * b0 + r.val
    rw [hi.1]; omega
  | ⟨1, _⟩ =>
    show win0_0.index ⟨16 * b0 + k, h⟩ 1 * 256 + 1 * j.val = 256 * k + j.val
    rw [hi.2.1]; omega
  | ⟨2, _⟩ =>
    show win0_0.index ⟨16 * b0 + k, h⟩ 2 * 128 + 1 * d.val = d.val
    rw [hi.2.2.1]; omega

/-- Input 1's tile at batch tile `b0` and time tile `k`: entry (r, j, d) is the array's entry (16·b0 + r, 256·k + j, d). -/
theorem iblk1_apply (c : Dev nD) (b0 k : ℕ) (hb0 : b0 < 2) (hk : k < 16) (h : 16 * b0 + k < cfg0.N)
    (r : Fin 16) (j : Fin 256) (d : Fin 128) :
    iblk m c 1 ⟨16 * b0 + k, h⟩ (ix3 r j d)
      = V m c main_arg1 (ix3 (⟨16 * b0 + r.val, by omega⟩ : Fin 32) (⟨256 * k + j.val, by omega⟩ : Fin 4096) d) := by
  have hi := idx_in ⟨16 * b0 + k, h⟩
  dsimp only at hi
  unfold iblk
  rw [View.read_apply]
  show V m c main_arg1 _ = V m c main_arg1 _
  refine congrArg (V m c main_arg1) (funext fun a => Fin.ext ?_)
  match a with
  | ⟨0, _⟩ =>
    show win0_1.index ⟨16 * b0 + k, h⟩ 0 * 16 + 1 * r.val = 16 * b0 + r.val
    rw [hi.2.2.2.1]; omega
  | ⟨1, _⟩ =>
    show win0_1.index ⟨16 * b0 + k, h⟩ 1 * 256 + 1 * j.val = 256 * k + j.val
    rw [hi.2.2.2.2.1]; omega
  | ⟨2, _⟩ =>
    show win0_1.index ⟨16 * b0 + k, h⟩ 2 * 128 + 1 * d.val = d.val
    rw [hi.2.2.2.2.2.1]; omega

/-- The lengths' tile at batch tile `b0`: row r is row 16·b0 + r of the lengths column. -/
theorem iblk2_apply (c : Dev nD) (b0 k : ℕ) (hb0 : b0 < 2) (hk : k < 16) (h : 16 * b0 + k < cfg0.N) (r : Fin 16) :
    iblk m c 2 ⟨16 * b0 + k, h⟩ (ix2 r 0) = V m c main_v0 (ix2 (⟨16 * b0 + r.val, by omega⟩ : Fin 32) (0 : Fin 1)) := by
  have hi := idx_in ⟨16 * b0 + k, h⟩
  dsimp only at hi
  unfold iblk
  rw [View.read_apply]
  show V m c main_v0 _ = V m c main_v0 _
  refine congrArg (V m c main_v0) (funext fun a => Fin.ext ?_)
  match a with
  | ⟨0, _⟩ =>
    show win0_2.index ⟨16 * b0 + k, h⟩ 0 * 16 + 1 * r.val = 16 * b0 + r.val
    rw [hi.2.2.2.2.2.2.1]; omega
  | ⟨1, _⟩ =>
    show win0_2.index ⟨16 * b0 + k, h⟩ 1 * 1 + 1 * 0 = 0
    rw [hi.2.2.2.2.2.2.2]

/-- The lengths column the region finds is the lengths vector viewed as [32, 1]. -/
theorem V_v0 (c : Dev nD) :
    (V m c main_v0 : S32x1.Idx → BitVec 32) = shapeCast S32x1 (m ((c : Thread nD τ).loc main_arg2)) shapeCasts_S32_S32x1 := by
  dsimp only [V, V0]
  simp only [hostOps0, List.flatten_cons, List.flatten_nil, List.append_nil]
  after_results
  rfl

/-- Its row b is the vector's entry b. -/
theorem V_v0_apply (c : Dev nD) (b : Fin 32) :
    (V m c main_v0 : S32x1.Idx → BitVec 32) (ix2 b (0 : Fin 1)) = m ((c : Thread nD τ).loc main_arg2) (ix1 b) := by
  rw [V_v0]
  exact shapeCast_apply _ _ (ix2 b (0 : Fin 1)) (ix1 b) (by
    rw [Shape.rowMajor_val_one, Shape.rowMajor_val_two]
    show b.val = b.val * 1 + 0
    omega)

end Cert.KernelIdeal.SegValue
end
-- ==== Proof.SegMath.lean ====
/-
  Sums and maxima accumulated tile by tile, on the extended reals.

  A sequence of 4096 terms is cut into 16 tiles of 256. Adding the tiles' sums one after the other to a start value
  gives the start value plus the sum of all terms (addition of extended reals is commutative and associative).
  Raising a start value by the tiles' maxima one after the other gives the maximum of the start value and of all
  terms; when one of the terms IS the start value, the start value can be dropped. The maxima are compared through
  their upper bounds, so the value the folds start from (the same on both sides) is never opened.
-/
import Mathlib.Data.EReal.Basic
import Mathlib.Algebra.BigOperators.Fin
import Mathlib.Algebra.BigOperators.Intervals
import Mathlib.Data.Finset.Fold

open scoped BigOperators

namespace Cert.SegLoss

/-- A running sum: the start value plus term 0, then plus each later term. -/
noncomputable def chainAdd (z : EReal) (T : ℕ → EReal) : ℕ → EReal
  | 0 => z + T 0
  | k + 1 => chainAdd z T k + T (k + 1)

theorem chainAdd_eq (z : EReal) (T : ℕ → EReal) (k : ℕ) :
    chainAdd z T k = z + ∑ i ∈ Finset.range (k + 1), T i := by
  induction k with
  | zero => simp [chainAdd]
  | succ k ih => rw [chainAdd, ih, Finset.sum_range_succ _ (k + 1), add_assoc]

/-- A running maximum: the start value raised by term 0, then by each later term. -/
noncomputable def chainMax (z : EReal) (M : ℕ → EReal) : ℕ → EReal
  | 0 => max z (M 0)
  | k + 1 => max (chainMax z M k) (M (k + 1))

theorem chainMax_le_iff (z : EReal) (M : ℕ → EReal) (k : ℕ) (c : EReal) :
    chainMax z M k ≤ c ↔ z ≤ c ∧ ∀ i, i ≤ k → M i ≤ c := by
  induction k with
  | zero =>
    simp only [chainMax, max_le_iff]
    exact ⟨fun h => ⟨h.1, fun i hi => by rw [Nat.le_zero.mp hi]; exact h.2⟩, fun h => ⟨h.1, h.2 0 le_rfl⟩⟩
  | succ k ih =>
    simp only [chainMax, max_le_iff, ih]
    constructor
    · rintro ⟨⟨hz, hk⟩, hl⟩
      refine ⟨hz, fun i hi => ?_⟩
      rcases Nat.lt_or_ge i (k + 1) with h | h
      · exact hk i (Nat.lt_succ_iff.mp h)
      · rw [Nat.le_antisymm hi h]; exact hl
    · rintro ⟨hz, hk⟩
      exact ⟨⟨hz, fun i hi => hk i (Nat.le_succ_of_le hi)⟩, hk (k + 1) le_rfl⟩

/-- A family over the 4096 time positions read at a natural number (zero past the end). -/
noncomputable def natT (y : Fin 4096 → EReal) (t : ℕ) : EReal := if h : t < 4096 then y ⟨t, h⟩ else 0

theorem natT_of_lt (y : Fin 4096 → EReal) (t : ℕ) (h : t < 4096) : natT y t = y ⟨t, h⟩ := dif_pos h
theorem natT_val (y : Fin 4096 → EReal) (t : Fin 4096) : natT y t.val = y t := dif_pos t.isLt

/-- The 16 tile sums of 256 terms are the sum of the 4096 terms. -/
theorem sum_tiles (f : ℕ → EReal) :
    ∑ k ∈ Finset.range 16, ∑ j : Fin 256, f (256 * k + j.val) = ∑ t : Fin 4096, f t.val := by
  rw [Finset.sum_range fun k => ∑ j : Fin 256, f (256 * k + j.val)]
  rw [← Fintype.sum_prod_type' (f := fun (k : Fin 16) (j : Fin 256) => f (256 * k.val + j.val))]
  rw [← Equiv.sum_comp (finProdFinEquiv (m := 16) (n := 256)) fun t : Fin (16 * 256) => f t.val]
  refine Finset.sum_congr rfl fun p _ => ?_
  show f _ = f _
  congr 1
  simp [finProdFinEquiv]
  omega

/-- The sum of squares accumulated over the 16 time tiles is the start value plus the sum over all 4096 positions. -/
theorem sum_bridge (z : EReal) (f : ℕ → EReal) :
    chainAdd z (fun k => ∑ j : Fin 256, f (256 * k + j.val)) 15 = z + ∑ t : Fin 4096, f t.val := by
  rw [chainAdd_eq, sum_tiles]

/-- A maximum accumulated over the 16 time tiles from the fill, when some position holds the fill itself, is the
    plain maximum over all 4096 positions. -/
theorem max_bridge (B fill : EReal) (g : ℕ → EReal) (h0 : ∃ t, t < 4096 ∧ g t = fill) :
    chainMax fill (fun k => (Finset.univ : Finset (Fin 256)).fold max B (fun j => g (256 * k + j.val))) 15
      = (Finset.univ : Finset (Fin 4096)).fold max B (fun t => g t.val) := by
  refine eq_of_forall_ge_iff fun c => ?_
  rw [chainMax_le_iff, Finset.fold_max_le]
  simp only [Finset.fold_max_le, Finset.mem_univ, forall_true_left]
  constructor
  · rintro ⟨_, h⟩
    refine ⟨(h 0 (Nat.zero_le _)).1, fun t => ?_⟩
    have := (h (t.val / 256) (by have := t.isLt; omega)).2 ⟨t.val % 256, Nat.mod_lt _ (by norm_num)⟩
    simpa [Nat.div_add_mod] using this
  · rintro ⟨hB, h⟩
    obtain ⟨t0, ht0, e0⟩ := h0
    refine ⟨?_, fun k hk => ⟨hB, fun j => ?_⟩⟩
    · rw [← e0]; exact h ⟨t0, ht0⟩
    · exact h ⟨256 * k + j.val, by have := j.isLt; omega⟩

/-- The accumulated sum of squares over a family of the 4096 positions. -/
theorem sum_bridge' (z : EReal) (y : Fin 4096 → EReal) :
    chainAdd z (fun k => ∑ j : Fin 256, natT y (256 * k + j.val)) 15 = z + ∑ t : Fin 4096, y t := by
  rw [sum_bridge z (natT y)]
  exact congrArg (z + ·) (Finset.sum_congr rfl fun t _ => natT_val y t)

/-- The accumulated maximum over a family of the 4096 positions one of which holds the fill. -/
theorem max_bridge' (B fill : EReal) (y : Fin 4096 → EReal) (h0 : ∃ t, y t = fill) :
    chainMax fill (fun k => (Finset.univ : Finset (Fin 256)).fold max B (fun j => natT y (256 * k + j.val))) 15
      = (Finset.univ : Finset (Fin 4096)).fold max B y := by
  obtain ⟨t0, e0⟩ := h0
  rw [max_bridge B fill (natT y) ⟨t0.val, t0.isLt, (natT_val y t0).trans e0⟩]
  exact congrArg (Finset.univ.fold max B) (funext fun t => natT_val y t)

end Cert.SegLoss
-- ==== Proof.IntFacts.lean ====
/-
  Facts on signed 32-bit words used by the comparison of the two programs.

  * Division by the literal two never meets the division corner, so on every unit the quotient and remainder are
    the truncating ones; the difference of the two comparisons with zero is the three-way sign; hence the kernel's
    floor division by two is the host program's.
  * The floor division by two computes `⌊x / 2⌋` on the signed value, so for a length of at most 4096 the half is
    at most 2048 and position 4095 is not below it.
  * A tile's row number plus the tile number times the tile height is the global position.
-/
import proofs.«118518_j39745627357645_2_alg».proof.Proof.FloorDiv

namespace Cert.SegLoss

open Idealize.ShloMosaic

/-- Dividing by two is never the signed-division corner. -/
theorem not_sdivCorner_two (x : BitVec 32) : ¬ IntOp.SDivCorner x 2#32 := by
  unfold IntOp.SDivCorner
  intro h
  rcases h with h | ⟨_, h⟩
  · exact absurd h (by decide)
  · exact absurd h (by decide)

theorem divsi_two (u : ArithUnit) (x : BitVec 32) : IntOp.divsi u x 2#32 = x.sdiv 2#32 := by
  simp only [IntOp.divsi, if_neg (not_sdivCorner_two x)]

theorem remsi_two (u : ArithUnit) (x : BitVec 32) : IntOp.remsi u x 2#32 = x.srem 2#32 := by
  simp only [IntOp.remsi, if_neg (not_sdivCorner_two x)]

/-- The difference of the two comparisons with zero, each zero-extended, is the three-way sign. -/
theorem sgnK_eq (x : BitVec 32) :
    IntOp.subi ((IntOp.cmpi .sgt x 0#32).setWidth 32) ((IntOp.cmpi .slt x 0#32).setWidth 32) = sgn3 x := by
  simp only [IntOp.cmpi, IntOp.subi, sgn3]
  by_cases h0 : x = 0#32
  · subst h0; decide
  · have hne : x.toInt ≠ 0 := by
      intro h; apply h0; exact BitVec.eq_of_toInt_eq (by simpa using h)
    by_cases hm : x.msb = true
    · have h1 : x.slt 0#32 = true := by
        simp [BitVec.slt, BitVec.msb_eq_toInt] at *; omega
      have h2 : (0#32).slt x = false := by
        simp [BitVec.slt, BitVec.msb_eq_toInt] at *; omega
      simp [hm, h1, h2, show ¬ x = 0#32 from h0]
    · have h1 : x.slt 0#32 = false := by
        simp [BitVec.slt, BitVec.msb_eq_toInt] at *; omega
      have h2 : (0#32).slt x = true := by
        simp [BitVec.slt, BitVec.msb_eq_toInt] at *; omega
      simp [hm, h1, h2, show ¬ x = 0#32 from h0]

theorem sgnK_two :
    Scalar.subi (Scalar.extui (Scalar.cmpi .sgt 2#32 0#32)) (Scalar.extui (Scalar.cmpi .slt 2#32 0#32)) = sgn3 2#32 := by
  decide

/-- The kernel's floor division by two is the host program's. -/
theorem halfK_eq_halfR (x : BitVec 32) : halfK x = halfR x := by
  unfold halfK halfR
  simp only [divsi_two, remsi_two, sgnK_eq, sgnK_two]

theorem sgn3_two : sgn3 2#32 = 1#32 := by decide

theorem sdiv_two_of_msb_false (x : BitVec 32) (h : x.msb = false) : x.sdiv 2#32 = x / 2#32 := by
  rw [BitVec.sdiv_eq, h, show (2#32 : BitVec 32).msb = false from by decide]
  rfl

theorem sdiv_two_of_msb_true (x : BitVec 32) (h : x.msb = true) : x.sdiv 2#32 = -((-x) / 2#32) := by
  rw [BitVec.sdiv_eq, h, show (2#32 : BitVec 32).msb = false from by decide]
  rfl

theorem srem_two_of_msb_false (x : BitVec 32) (h : x.msb = false) : x.srem 2#32 = x % 2#32 := by
  rw [BitVec.srem_eq, h, show (2#32 : BitVec 32).msb = false from by decide]

theorem srem_two_of_msb_true (x : BitVec 32) (h : x.msb = true) : x.srem 2#32 = -((-x) % 2#32) := by
  rw [BitVec.srem_eq, h, show (2#32 : BitVec 32).msb = false from by decide]

theorem sel_and (p q : Bool) (a b : BitVec 32) :
    (if BitVec.ofBool p &&& BitVec.ofBool q = 1 then a else b) = if (p = true ∧ q = true) then a else b := by
  cases p <;> cases q <;> simp

/-- The host program's floor division by two, as one conditional on the word. -/
theorem halfR_eq (x : BitVec 32) :
    halfR x = if (sgn3 x ≠ 1#32 ∧ x.srem 2#32 ≠ 0#32) then x.sdiv 2#32 - 1#32 else x.sdiv 2#32 := by
  unfold halfR
  simp only [divsi_two, remsi_two, sgn3_two, IntOp.cmpi, IntOp.andi, IntOp.subi, Scalar.select, sel_and,
    bne_iff_ne, ne_eq]

theorem toInt_of_lt (y : BitVec 32) (h : y.toNat < 2147483648) : y.toInt = (y.toNat : Int) := by
  rw [BitVec.toInt_eq_toNat_cond, if_pos (by omega)]

theorem toInt_of_ge (y : BitVec 32) (h : 2147483648 ≤ y.toNat) : y.toInt = (y.toNat : Int) - 4294967296 := by
  rw [BitVec.toInt_eq_toNat_cond, if_neg (by omega)]
  omega

/-- The host program's floor division by two is the floor of the signed value's half. -/
theorem halfR_toInt (x : BitVec 32) : (halfR x).toInt = x.toInt / 2 := by
  rw [halfR_eq]
  have h2 : (2#32 : BitVec 32).toNat = 2 := rfl
  by_cases hm : x.msb = true
  · have hx0 : ¬ x = 0#32 := by intro h; subst h; simp at hm
    have hs : sgn3 x = -1 := by unfold sgn3; rw [if_neg (show ¬ x = 0 from hx0), if_pos hm]
    rw [hs, sdiv_two_of_msb_true x hm, srem_two_of_msb_true x hm]
    have hm2 : 2147483648 ≤ x.toNat := by
      have h := hm; rw [BitVec.msb_eq_decide] at h; simp at h; omega
    have hn : (-x).toNat = 4294967296 - x.toNat := by rw [BitVec.toNat_neg]; omega
    have hd : (-x / 2#32).toNat = (4294967296 - x.toNat) / 2 := by rw [BitVec.toNat_udiv, hn, h2]
    have hmod : (-x % 2#32).toNat = (4294967296 - x.toNat) % 2 := by rw [BitVec.toNat_umod, hn, h2]
    have hA : (-(-x / 2#32)).toNat = (4294967296 - (4294967296 - x.toNat) / 2) % 4294967296 := by
      rw [BitVec.toNat_neg, hd]
    have hxI := toInt_of_ge x hm2
    by_cases hr : (-x % 2#32) = 0#32
    · rw [if_neg (by simp [hr])]
      have hr' : (4294967296 - x.toNat) % 2 = 0 := by rw [← hmod, hr]; rfl
      have hA2 : 2147483648 ≤ (-(-x / 2#32)).toNat := by rw [hA]; omega
      rw [toInt_of_ge _ hA2, hA, hxI]; omega
    · rw [if_pos ⟨by decide, by simpa using hr⟩]
      have hr' : (4294967296 - x.toNat) % 2 = 1 := by
        have : (-x % 2#32).toNat ≠ 0 := fun h => hr (BitVec.eq_of_toNat_eq (by rw [h]; rfl))
        omega
      have hB : (-(-x / 2#32) - 1#32).toNat
          = (4294967296 - 1 + (4294967296 - (4294967296 - x.toNat) / 2) % 4294967296) % 4294967296 := by
        rw [BitVec.toNat_sub, hA]; rfl
      have hB2 : 2147483648 ≤ (-(-x / 2#32) - 1#32).toNat := by rw [hB]; omega
      rw [toInt_of_ge _ hB2, hB, hxI]; omega
  · have hm' : x.msb = false := by simpa using hm
    have hm2 : x.toNat < 2147483648 := by
      have h := hm'; rw [BitVec.msb_eq_decide] at h; simp at h; omega
    rw [sdiv_two_of_msb_false x hm', srem_two_of_msb_false x hm']
    have hc : ¬ (sgn3 x ≠ 1#32 ∧ x % 2#32 ≠ 0#32) := by
      rintro ⟨h1, h2⟩
      by_cases hx0 : x = 0#32
      · subst hx0; exact h2 (by decide)
      · apply h1; unfold sgn3; rw [if_neg (show ¬ x = 0 from hx0), hm']; rfl
    rw [if_neg hc]
    have hd : (x / 2#32).toNat = x.toNat / 2 := by rw [BitVec.toNat_udiv, h2]
    rw [toInt_of_lt _ (by rw [hd]; omega), hd, toInt_of_lt x hm2]; omega

/-- Position 4095 is not below the half of a length of at most 4096. -/
theorem halfR_le (x : BitVec 32) (hx : x.toInt ≤ 4096) :
    IntOp.cmpi .slt (BitVec.ofNat 32 4095) (halfR x) = 0#1 := by
  have h := halfR_toInt x
  have h4 : (BitVec.ofNat 32 4095).toInt = 4095 := by decide
  simp only [IntOp.cmpi, BitVec.slt, h, h4]
  have : ¬ ((4095 : Int) < x.toInt / 2) := by omega
  simp [this]

/-- A tile's row number plus the tile number times the tile height is the global position. -/
theorem pos_eq' (tt : Fin 16) (j : Fin 256) :
    BitVec.ofNat 32 j.val + BitVec.ofNat 32 tt.val * 256#32 = BitVec.ofNat 32 (tt.val * 256 + j.val) := by
  rw [show (256#32 : BitVec 32) = BitVec.ofNat 32 256 from rfl, ← BitVec.ofNat_mul, ← BitVec.ofNat_add]
  congr 1; omega

/-- The same, as the operations spell it. -/
theorem pos_eq (tt : Fin 16) (j : Fin 256) :
    IntOp.addi (BitVec.ofNat 32 (0 * 256 + j.val)) (Scalar.muli (BitVec.ofNat 32 tt.val) 256#32)
      = BitVec.ofNat 32 (tt.val * 256 + j.val) := by
  simp only [IntOp.addi, Scalar.muli, IntOp.muli, Nat.zero_mul, Nat.zero_add]
  exact pos_eq' tt j

end Cert.SegLoss
-- ==== Proof.KTiles.lean ====
import proofs.«118518_j39745627357645_2_alg».proof.Proof.Gen.KernelIdeal.Frame
import proofs.«118518_j39745627357645_2_alg».proof.Proof.KAcc1
import proofs.«118518_j39745627357645_2_alg».proof.Proof.KPay
import proofs.«118518_j39745627357645_2_alg».proof.Proof.KBlocks
import proofs.«118518_j39745627357645_2_alg».proof.Proof.SegMath
import proofs.«118518_j39745627357645_2_alg».proof.Proof.IntFacts
import Idealize.ShloMosaic.Lib.Pipeline.Value
import Idealize.ShloMosaic.Lib.Tactic
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen

open Idealize.ShloMosaic.ValueIdx Cert.SegLoss
variable (m : (ℓ : Loc nD τ sig) → Buf (Elt Ideal) ℓ)

/-! The running values after time tile `k` of batch tile `b0`, at row r and feature d, in terms of the whole
    arrays: the sum of squares is the chain of the tiles' sums from zero, each maximum the chain of the tiles'
    masked maxima from the finite fill. -/

abbrev zeroE : EReal := Ideal.ofBits .f32 0x00000000#32
abbrev fillE : EReal := Ideal.ofBits .f32 fillBits
abbrev ninfE : EReal := Ideal.ofBits .f32 0xFF800000#32

/-- The two float arrays and the lengths column as the region finds them. -/
abbrev arrO (c : Dev nD) : S32x4096x128.Idx → EReal := V m c main_arg0
abbrev arrL (c : Dev nD) : S32x4096x128.Idx → EReal := V m c main_arg1
def lenAt (c : Dev nD) (b : Fin 32) : BitVec 32 := (V m c main_v0 : S32x1.Idx → BitVec 32) (ix2 b (0 : Fin 1))

/-- The squared difference at (b, t, d). -/
def sqAt (c : Dev nD) (b : Fin 32) (d : Fin 128) (t : Fin 4096) : EReal :=
  (arrO m c (ix3 b t d) - arrL m c (ix3 b t d)) * (arrO m c (ix3 b t d) - arrL m c (ix3 b t d))

/-- First-half and second-half segment tests of a position against a length. -/
def msk1 (len p : BitVec 32) : BitVec 1 := IntOp.cmpi .slt p (halfK len)
def msk2 (len p : BitVec 32) : BitVec 1 := IntOp.andi (IntOp.cmpi .sge p (halfK len)) (IntOp.cmpi .slt p len)

/-- An array's entry at (b, t, d) where the position passes the test, the finite fill elsewhere. -/
def mval (msk : BitVec 32 → BitVec 1) (x : S32x4096x128.Idx → EReal) (b : Fin 32) (d : Fin 128) (t : Fin 4096) : EReal :=
  if msk (BitVec.ofNat 32 t.val) = 1 then x (ix3 b t d) else fillE

theorem coords1 : ∀ t : Fin cfg0.N, (grid0.coords t 1).val = t.val % 16 :=
  (by decide +kernel : ∀ t : Fin grid0.N, _)

/-- Row j of time tile k sits at position 256·k + j. -/
theorem posK_eq (k : ℕ) (hk : k < 16) (j : Fin 256) : posK k j = BitVec.ofNat 32 (256 * k + j.val) := by
  have e := pos_eq' ⟨k, hk⟩ j
  unfold posK
  show BitVec.ofNat 32 j.val + BitVec.ofNat 32 k * 256#32 = _
  rw [e]
  exact congrArg (BitVec.ofNat 32) (by show k * 256 + j.val = 256 * k + j.val; omega)

/-- A tile's sum of squared differences, for any two tiles whose row r holds row b of two arrays at the tile's
    256 positions. -/
theorem tileSq_gen (x0 x1 : FVec Ideal S16x256x128 .f32) (o l : S32x4096x128.Idx → EReal) (b : Fin 32) (k : ℕ) (hk : k < 16)
    (r : Fin 16) (d : Fin 128)
    (e0 : ∀ j : Fin 256, x0 (ix3 r j d) = o (ix3 b (⟨256 * k + j.val, by have := j.isLt; omega⟩ : Fin 4096) d))
    (e1 : ∀ j : Fin 256, x1 (ix3 r j d) = l (ix3 b (⟨256 * k + j.val, by have := j.isLt; omega⟩ : Fin 4096) d)) :
    (∑ j : Fin 256, (x0 (ix3 r j d) - x1 (ix3 r j d)) * (x0 (ix3 r j d) - x1 (ix3 r j d)))
      = ∑ j : Fin 256, natT (fun t => (o (ix3 b t d) - l (ix3 b t d)) * (o (ix3 b t d) - l (ix3 b t d))) (256 * k + j.val) :=
  Finset.sum_congr rfl fun j _ => by
    rw [e0 j, e1 j, natT_of_lt _ _ (by have := j.isLt; omega)]

/-- A tile's masked maximum, likewise. -/
theorem tileM_gen (mask : IVec S16x256x128 1) (x : FVec Ideal S16x256x128 .f32) (msk : BitVec 32 → BitVec 1)
    (xs : S32x4096x128.Idx → EReal) (b : Fin 32) (k : ℕ) (hk : k < 16) (r : Fin 16) (d : Fin 128)
    (em : ∀ j : Fin 256, mask (ix3 r j d) = msk (BitVec.ofNat 32 (256 * k + j.val)))
    (ex : ∀ j : Fin 256, x (ix3 r j d) = xs (ix3 b (⟨256 * k + j.val, by have := j.isLt; omega⟩ : Fin 4096) d)) :
    (Finset.univ : Finset (Fin 256)).fold max ninfE (fun j => if mask (ix3 r j d) = 1 then x (ix3 r j d) else fillE)
      = (Finset.univ : Finset (Fin 256)).fold max ninfE (fun j => natT (mval msk xs b d) (256 * k + j.val)) := by
  refine congrArg (Finset.univ.fold max ninfE) (funext fun j => ?_)
  rw [em j, ex j, natT_of_lt _ _ (by have := j.isLt; omega)]
  rfl

theorem maskAt1 (c : Dev nD) (b0 k : ℕ) (hb0 : b0 < 2) (hk : k < 16) (h : 16 * b0 + k < cfg0.N) (r : Fin 16) (j : Fin 256) (d : Fin 128) :
    k0_pay13 (k0_pay8 (grid0.coords ⟨16 * b0 + k, h⟩)) (k0_pay9 (iblk m c 2 ⟨16 * b0 + k, h⟩)) 2#32 (k0_pay10 (iblk m c 2 ⟨16 * b0 + k, h⟩)) (k0_pay11 (iblk m c 2 ⟨16 * b0 + k, h⟩)) (ix3 r j d)
      = msk1 (lenAt m c (⟨16 * b0 + r.val, by omega⟩ : Fin 32)) (BitVec.ofNat 32 (256 * k + j.val)) := by
  have hc : (grid0.coords (⟨16 * b0 + k, h⟩ : Fin cfg0.N) 1).val = k := by
    rw [coords1]; show (16 * b0 + k) % 16 = k; omega
  rw [mask1_apply (grid0.coords ⟨16 * b0 + k, h⟩) (iblk m c 2 ⟨16 * b0 + k, h⟩) r j d, iblk2_apply m c b0 k hb0 hk h r, hc, posK_eq k hk j]
  rfl

theorem maskAt2 (c : Dev nD) (b0 k : ℕ) (hb0 : b0 < 2) (hk : k < 16) (h : 16 * b0 + k < cfg0.N) (r : Fin 16) (j : Fin 256) (d : Fin 128) :
    k0_pay14 (k0_pay8 (grid0.coords ⟨16 * b0 + k, h⟩)) (k0_pay9 (iblk m c 2 ⟨16 * b0 + k, h⟩)) 2#32 (k0_pay10 (iblk m c 2 ⟨16 * b0 + k, h⟩)) (k0_pay11 (iblk m c 2 ⟨16 * b0 + k, h⟩)) (ix3 r j d)
      = msk2 (lenAt m c (⟨16 * b0 + r.val, by omega⟩ : Fin 32)) (BitVec.ofNat 32 (256 * k + j.val)) := by
  have hc : (grid0.coords (⟨16 * b0 + k, h⟩ : Fin cfg0.N) 1).val = k := by
    rw [coords1]; show (16 * b0 + k) % 16 = k; omega
  rw [mask2_apply (grid0.coords ⟨16 * b0 + k, h⟩) (iblk m c 2 ⟨16 * b0 + k, h⟩) r j d, iblk2_apply m c b0 k hb0 hk h r, hc, posK_eq k hk j]
  rfl

end Cert.KernelIdeal.SegValue
end
-- ==== Proof.KInv.lean ====
import proofs.«118518_j39745627357645_2_alg».proof.Proof.Gen.KernelIdeal.Frame
import proofs.«118518_j39745627357645_2_alg».proof.Proof.KTiles
import Idealize.ShloMosaic.Lib.Pipeline.Value
import Idealize.ShloMosaic.Lib.Tactic
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen

open Idealize.ShloMosaic.ValueIdx Cert.SegLoss
variable (m : (ℓ : Loc nD τ sig) → Buf (Elt Ideal) ℓ)

/-! By induction on the time tile: each output block after time tile `k` of batch tile `b0` is the chain of the
    tiles' contributions from its fill. -/

theorem inv3 (c : Dev nD) (b0 : ℕ) (hb0 : b0 < 2) (r : Fin 16) (d : Fin 128) :
    ∀ (k : ℕ) (hk : k < 16) (h : 16 * b0 + k < cfg0.N),
      (outsAt0 m c (16 * b0 + k) h).1 (ix2 r d)
        = chainAdd zeroE (fun k' => ∑ j : Fin 256, natT (sqAt m c (⟨16 * b0 + r.val, by omega⟩ : Fin 32) d) (256 * k' + j.val)) k
  | 0, hk, h => by
    refine (congrFun (at_A_3 m c ⟨16 * b0 + 0, h⟩ (by show (16 * b0 + 0) % 16 = 0; omega)) (ix2 r d)).trans ?_
    refine (pay7_apply (iblk m c 0 ⟨16 * b0 + 0, h⟩) (iblk m c 1 ⟨16 * b0 + 0, h⟩) (k0_pay2 (F := Ideal)) r d).trans ?_
    refine (congrArg ((k0_pay2 (F := Ideal)) (ix2 r d) + ·) (tileSq_gen (iblk m c 0 ⟨16 * b0 + 0, h⟩) (iblk m c 1 ⟨16 * b0 + 0, h⟩) (arrO m c) (arrL m c) (⟨16 * b0 + r.val, by omega⟩ : Fin 32) 0 hk r d
      (fun j => iblk0_apply m c b0 0 hb0 hk h r j d) (fun j => iblk1_apply m c b0 0 hb0 hk h r j d))).trans ?_
    rfl
  | k + 1, hk, h => by
    refine (congrFun (at_B_3 m c ⟨16 * b0 + (k + 1), h⟩ (by show ¬(16 * b0 + (k + 1)) % 16 = 0; omega)) (ix2 r d)).trans ?_
    refine (pay7_apply (iblk m c 0 ⟨16 * b0 + (k + 1), h⟩) (iblk m c 1 ⟨16 * b0 + (k + 1), h⟩)
      ((outsAt0 m c (16 * b0 + k) (Nat.lt_of_succ_lt h)).1) r d).trans ?_
    refine (congrArg (((outsAt0 m c (16 * b0 + k) (Nat.lt_of_succ_lt h)).1) (ix2 r d) + ·) (tileSq_gen (iblk m c 0 ⟨16 * b0 + (k + 1), h⟩) (iblk m c 1 ⟨16 * b0 + (k + 1), h⟩) (arrO m c) (arrL m c) (⟨16 * b0 + r.val, by omega⟩ : Fin 32) (k + 1) hk r d
      (fun j => iblk0_apply m c b0 (k + 1) hb0 hk h r j d) (fun j => iblk1_apply m c b0 (k + 1) hb0 hk h r j d))).trans ?_
    rw [inv3 c b0 hb0 r d k (by omega) (Nat.lt_of_succ_lt h)]
    rfl

theorem inv4 (c : Dev nD) (b0 : ℕ) (hb0 : b0 < 2) (r : Fin 16) (d : Fin 128) :
    ∀ (k : ℕ) (hk : k < 16) (h : 16 * b0 + k < cfg0.N),
      (outsAt0 m c (16 * b0 + k) h).2.1 (ix2 r d)
        = chainMax fillE (fun k' => (Finset.univ : Finset (Fin 256)).fold max ninfE
            (fun j => natT (mval (msk1 (lenAt m c (⟨16 * b0 + r.val, by omega⟩ : Fin 32))) (arrO m c) (⟨16 * b0 + r.val, by omega⟩ : Fin 32) d) (256 * k' + j.val))) k
  | 0, hk, h => by
    refine (congrFun (at_A_4 m c ⟨16 * b0 + 0, h⟩ (by show (16 * b0 + 0) % 16 = 0; omega)) (ix2 r d)).trans ?_
    refine (segUpd_apply (k0_pay13 (k0_pay8 (grid0.coords ⟨16 * b0 + 0, h⟩)) (k0_pay9 (iblk m c 2 ⟨16 * b0 + 0, h⟩)) 2#32 (k0_pay10 (iblk m c 2 ⟨16 * b0 + 0, h⟩)) (k0_pay11 (iblk m c 2 ⟨16 * b0 + 0, h⟩))) (iblk m c 0 ⟨16 * b0 + 0, h⟩) (k0_pay3 (F := Ideal)) r d).trans ?_
    refine (congrArg (max ((k0_pay3 (F := Ideal)) (ix2 r d))) (tileM_gen (k0_pay13 (k0_pay8 (grid0.coords ⟨16 * b0 + 0, h⟩)) (k0_pay9 (iblk m c 2 ⟨16 * b0 + 0, h⟩)) 2#32 (k0_pay10 (iblk m c 2 ⟨16 * b0 + 0, h⟩)) (k0_pay11 (iblk m c 2 ⟨16 * b0 + 0, h⟩))) (iblk m c 0 ⟨16 * b0 + 0, h⟩) (msk1 (lenAt m c (⟨16 * b0 + r.val, by omega⟩ : Fin 32))) (arrO m c) (⟨16 * b0 + r.val, by omega⟩ : Fin 32) 0 hk r d
      (fun j => maskAt1 m c b0 0 hb0 hk h r j d) (fun j => iblk0_apply m c b0 0 hb0 hk h r j d))).trans ?_
    rfl
  | k + 1, hk, h => by
    refine (congrFun (at_B_4 m c ⟨16 * b0 + (k + 1), h⟩ (by show ¬(16 * b0 + (k + 1)) % 16 = 0; omega)) (ix2 r d)).trans ?_
    refine (segUpd_apply (k0_pay13 (k0_pay8 (grid0.coords ⟨16 * b0 + (k + 1), h⟩)) (k0_pay9 (iblk m c 2 ⟨16 * b0 + (k + 1), h⟩)) 2#32 (k0_pay10 (iblk m c 2 ⟨16 * b0 + (k + 1), h⟩)) (k0_pay11 (iblk m c 2 ⟨16 * b0 + (k + 1), h⟩))) (iblk m c 0 ⟨16 * b0 + (k + 1), h⟩)
      ((outsAt0 m c (16 * b0 + k) (Nat.lt_of_succ_lt h)).2.1) r d).trans ?_
    refine (congrArg (max (((outsAt0 m c (16 * b0 + k) (Nat.lt_of_succ_lt h)).2.1) (ix2 r d))) (tileM_gen (k0_pay13 (k0_pay8 (grid0.coords ⟨16 * b0 + (k + 1), h⟩)) (k0_pay9 (iblk m c 2 ⟨16 * b0 + (k + 1), h⟩)) 2#32 (k0_pay10 (iblk m c 2 ⟨16 * b0 + (k + 1), h⟩)) (k0_pay11 (iblk m c 2 ⟨16 * b0 + (k + 1), h⟩))) (iblk m c 0 ⟨16 * b0 + (k + 1), h⟩) (msk1 (lenAt m c (⟨16 * b0 + r.val, by omega⟩ : Fin 32))) (arrO m c) (⟨16 * b0 + r.val, by omega⟩ : Fin 32) (k + 1) hk r d
      (fun j => maskAt1 m c b0 (k + 1) hb0 hk h r j d) (fun j => iblk0_apply m c b0 (k + 1) hb0 hk h r j d))).trans ?_
    rw [inv4 c b0 hb0 r d k (by omega) (Nat.lt_of_succ_lt h)]
    rfl

theorem inv5 (c : Dev nD) (b0 : ℕ) (hb0 : b0 < 2) (r : Fin 16) (d : Fin 128) :
    ∀ (k : ℕ) (hk : k < 16) (h : 16 * b0 + k < cfg0.N),
      (outsAt0 m c (16 * b0 + k) h).2.2.1 (ix2 r d)
        = chainMax fillE (fun k' => (Finset.univ : Finset (Fin 256)).fold max ninfE
            (fun j => natT (mval (msk1 (lenAt m c (⟨16 * b0 + r.val, by omega⟩ : Fin 32))) (arrL m c) (⟨16 * b0 + r.val, by omega⟩ : Fin 32) d) (256 * k' + j.val))) k
  | 0, hk, h => by
    refine (congrFun (at_A_5 m c ⟨16 * b0 + 0, h⟩ (by show (16 * b0 + 0) % 16 = 0; omega)) (ix2 r d)).trans ?_
    refine (segUpd_apply (k0_pay13 (k0_pay8 (grid0.coords ⟨16 * b0 + 0, h⟩)) (k0_pay9 (iblk m c 2 ⟨16 * b0 + 0, h⟩)) 2#32 (k0_pay10 (iblk m c 2 ⟨16 * b0 + 0, h⟩)) (k0_pay11 (iblk m c 2 ⟨16 * b0 + 0, h⟩))) (iblk m c 1 ⟨16 * b0 + 0, h⟩) (k0_pay4 (F := Ideal)) r d).trans ?_
    refine (congrArg (max ((k0_pay4 (F := Ideal)) (ix2 r d))) (tileM_gen (k0_pay13 (k0_pay8 (grid0.coords ⟨16 * b0 + 0, h⟩)) (k0_pay9 (iblk m c 2 ⟨16 * b0 + 0, h⟩)) 2#32 (k0_pay10 (iblk m c 2 ⟨16 * b0 + 0, h⟩)) (k0_pay11 (iblk m c 2 ⟨16 * b0 + 0, h⟩))) (iblk m c 1 ⟨16 * b0 + 0, h⟩) (msk1 (lenAt m c (⟨16 * b0 + r.val, by omega⟩ : Fin 32))) (arrL m c) (⟨16 * b0 + r.val, by omega⟩ : Fin 32) 0 hk r d
      (fun j => maskAt1 m c b0 0 hb0 hk h r j d) (fun j => iblk1_apply m c b0 0 hb0 hk h r j d))).trans ?_
    rfl
  | k + 1, hk, h => by
    refine (congrFun (at_B_5 m c ⟨16 * b0 + (k + 1), h⟩ (by show ¬(16 * b0 + (k + 1)) % 16 = 0; omega)) (ix2 r d)).trans ?_
    refine (segUpd_apply (k0_pay13 (k0_pay8 (grid0.coords ⟨16 * b0 + (k + 1), h⟩)) (k0_pay9 (iblk m c 2 ⟨16 * b0 + (k + 1), h⟩)) 2#32 (k0_pay10 (iblk m c 2 ⟨16 * b0 + (k + 1), h⟩)) (k0_pay11 (iblk m c 2 ⟨16 * b0 + (k + 1), h⟩))) (iblk m c 1 ⟨16 * b0 + (k + 1), h⟩)
      ((outsAt0 m c (16 * b0 + k) (Nat.lt_of_succ_lt h)).2.2.1) r d).trans ?_
    refine (congrArg (max (((outsAt0 m c (16 * b0 + k) (Nat.lt_of_succ_lt h)).2.2.1) (ix2 r d))) (tileM_gen (k0_pay13 (k0_pay8 (grid0.coords ⟨16 * b0 + (k + 1), h⟩)) (k0_pay9 (iblk m c 2 ⟨16 * b0 + (k + 1), h⟩)) 2#32 (k0_pay10 (iblk m c 2 ⟨16 * b0 + (k + 1), h⟩)) (k0_pay11 (iblk m c 2 ⟨16 * b0 + (k + 1), h⟩))) (iblk m c 1 ⟨16 * b0 + (k + 1), h⟩) (msk1 (lenAt m c (⟨16 * b0 + r.val, by omega⟩ : Fin 32))) (arrL m c) (⟨16 * b0 + r.val, by omega⟩ : Fin 32) (k + 1) hk r d
      (fun j => maskAt1 m c b0 (k + 1) hb0 hk h r j d) (fun j => iblk1_apply m c b0 (k + 1) hb0 hk h r j d))).trans ?_
    rw [inv5 c b0 hb0 r d k (by omega) (Nat.lt_of_succ_lt h)]
    rfl

theorem inv6 (c : Dev nD) (b0 : ℕ) (hb0 : b0 < 2) (r : Fin 16) (d : Fin 128) :
    ∀ (k : ℕ) (hk : k < 16) (h : 16 * b0 + k < cfg0.N),
      (outsAt0 m c (16 * b0 + k) h).2.2.2.1 (ix2 r d)
        = chainMax fillE (fun k' => (Finset.univ : Finset (Fin 256)).fold max ninfE
            (fun j => natT (mval (msk2 (lenAt m c (⟨16 * b0 + r.val, by omega⟩ : Fin 32))) (arrO m c) (⟨16 * b0 + r.val, by omega⟩ : Fin 32) d) (256 * k' + j.val))) k
  | 0, hk, h => by
    refine (congrFun (at_A_6 m c ⟨16 * b0 + 0, h⟩ (by show (16 * b0 + 0) % 16 = 0; omega)) (ix2 r d)).trans ?_
    refine (segUpd_apply (k0_pay14 (k0_pay8 (grid0.coords ⟨16 * b0 + 0, h⟩)) (k0_pay9 (iblk m c 2 ⟨16 * b0 + 0, h⟩)) 2#32 (k0_pay10 (iblk m c 2 ⟨16 * b0 + 0, h⟩)) (k0_pay11 (iblk m c 2 ⟨16 * b0 + 0, h⟩))) (iblk m c 0 ⟨16 * b0 + 0, h⟩) (k0_pay5 (F := Ideal)) r d).trans ?_
    refine (congrArg (max ((k0_pay5 (F := Ideal)) (ix2 r d))) (tileM_gen (k0_pay14 (k0_pay8 (grid0.coords ⟨16 * b0 + 0, h⟩)) (k0_pay9 (iblk m c 2 ⟨16 * b0 + 0, h⟩)) 2#32 (k0_pay10 (iblk m c 2 ⟨16 * b0 + 0, h⟩)) (k0_pay11 (iblk m c 2 ⟨16 * b0 + 0, h⟩))) (iblk m c 0 ⟨16 * b0 + 0, h⟩) (msk2 (lenAt m c (⟨16 * b0 + r.val, by omega⟩ : Fin 32))) (arrO m c) (⟨16 * b0 + r.val, by omega⟩ : Fin 32) 0 hk r d
      (fun j => maskAt2 m c b0 0 hb0 hk h r j d) (fun j => iblk0_apply m c b0 0 hb0 hk h r j d))).trans ?_
    rfl
  | k + 1, hk, h => by
    refine (congrFun (at_B_6 m c ⟨16 * b0 + (k + 1), h⟩ (by show ¬(16 * b0 + (k + 1)) % 16 = 0; omega)) (ix2 r d)).trans ?_
    refine (segUpd_apply (k0_pay14 (k0_pay8 (grid0.coords ⟨16 * b0 + (k + 1), h⟩)) (k0_pay9 (iblk m c 2 ⟨16 * b0 + (k + 1), h⟩)) 2#32 (k0_pay10 (iblk m c 2 ⟨16 * b0 + (k + 1), h⟩)) (k0_pay11 (iblk m c 2 ⟨16 * b0 + (k + 1), h⟩))) (iblk m c 0 ⟨16 * b0 + (k + 1), h⟩)
      ((outsAt0 m c (16 * b0 + k) (Nat.lt_of_succ_lt h)).2.2.2.1) r d).trans ?_
    refine (congrArg (max (((outsAt0 m c (16 * b0 + k) (Nat.lt_of_succ_lt h)).2.2.2.1) (ix2 r d))) (tileM_gen (k0_pay14 (k0_pay8 (grid0.coords ⟨16 * b0 + (k + 1), h⟩)) (k0_pay9 (iblk m c 2 ⟨16 * b0 + (k + 1), h⟩)) 2#32 (k0_pay10 (iblk m c 2 ⟨16 * b0 + (k + 1), h⟩)) (k0_pay11 (iblk m c 2 ⟨16 * b0 + (k + 1), h⟩))) (iblk m c 0 ⟨16 * b0 + (k + 1), h⟩) (msk2 (lenAt m c (⟨16 * b0 + r.val, by omega⟩ : Fin 32))) (arrO m c) (⟨16 * b0 + r.val, by omega⟩ : Fin 32) (k + 1) hk r d
      (fun j => maskAt2 m c b0 (k + 1) hb0 hk h r j d) (fun j => iblk0_apply m c b0 (k + 1) hb0 hk h r j d))).trans ?_
    rw [inv6 c b0 hb0 r d k (by omega) (Nat.lt_of_succ_lt h)]
    rfl

theorem inv7 (c : Dev nD) (b0 : ℕ) (hb0 : b0 < 2) (r : Fin 16) (d : Fin 128) :
    ∀ (k : ℕ) (hk : k < 16) (h : 16 * b0 + k < cfg0.N),
      (outsAt0 m c (16 * b0 + k) h).2.2.2.2 (ix2 r d)
        = chainMax fillE (fun k' => (Finset.univ : Finset (Fin 256)).fold max ninfE
            (fun j => natT (mval (msk2 (lenAt m c (⟨16 * b0 + r.val, by omega⟩ : Fin 32))) (arrL m c) (⟨16 * b0 + r.val, by omega⟩ : Fin 32) d) (256 * k' + j.val))) k
  | 0, hk, h => by
    refine (congrFun (at_A_7 m c ⟨16 * b0 + 0, h⟩ (by show (16 * b0 + 0) % 16 = 0; omega)) (ix2 r d)).trans ?_
    refine (segUpd_apply (k0_pay14 (k0_pay8 (grid0.coords ⟨16 * b0 + 0, h⟩)) (k0_pay9 (iblk m c 2 ⟨16 * b0 + 0, h⟩)) 2#32 (k0_pay10 (iblk m c 2 ⟨16 * b0 + 0, h⟩)) (k0_pay11 (iblk m c 2 ⟨16 * b0 + 0, h⟩))) (iblk m c 1 ⟨16 * b0 + 0, h⟩) (k0_pay6 (F := Ideal)) r d).trans ?_
    refine (congrArg (max ((k0_pay6 (F := Ideal)) (ix2 r d))) (tileM_gen (k0_pay14 (k0_pay8 (grid0.coords ⟨16 * b0 + 0, h⟩)) (k0_pay9 (iblk m c 2 ⟨16 * b0 + 0, h⟩)) 2#32 (k0_pay10 (iblk m c 2 ⟨16 * b0 + 0, h⟩)) (k0_pay11 (iblk m c 2 ⟨16 * b0 + 0, h⟩))) (iblk m c 1 ⟨16 * b0 + 0, h⟩) (msk2 (lenAt m c (⟨16 * b0 + r.val, by omega⟩ : Fin 32))) (arrL m c) (⟨16 * b0 + r.val, by omega⟩ : Fin 32) 0 hk r d
      (fun j => maskAt2 m c b0 0 hb0 hk h r j d) (fun j => iblk1_apply m c b0 0 hb0 hk h r j d))).trans ?_
    rfl
  | k + 1, hk, h => by
    refine (congrFun (at_B_7 m c ⟨16 * b0 + (k + 1), h⟩ (by show ¬(16 * b0 + (k + 1)) % 16 = 0; omega)) (ix2 r d)).trans ?_
    refine (segUpd_apply (k0_pay14 (k0_pay8 (grid0.coords ⟨16 * b0 + (k + 1), h⟩)) (k0_pay9 (iblk m c 2 ⟨16 * b0 + (k + 1), h⟩)) 2#32 (k0_pay10 (iblk m c 2 ⟨16 * b0 + (k + 1), h⟩)) (k0_pay11 (iblk m c 2 ⟨16 * b0 + (k + 1), h⟩))) (iblk m c 1 ⟨16 * b0 + (k + 1), h⟩)
      ((outsAt0 m c (16 * b0 + k) (Nat.lt_of_succ_lt h)).2.2.2.2) r d).trans ?_
    refine (congrArg (max (((outsAt0 m c (16 * b0 + k) (Nat.lt_of_succ_lt h)).2.2.2.2) (ix2 r d))) (tileM_gen (k0_pay14 (k0_pay8 (grid0.coords ⟨16 * b0 + (k + 1), h⟩)) (k0_pay9 (iblk m c 2 ⟨16 * b0 + (k + 1), h⟩)) 2#32 (k0_pay10 (iblk m c 2 ⟨16 * b0 + (k + 1), h⟩)) (k0_pay11 (iblk m c 2 ⟨16 * b0 + (k + 1), h⟩))) (iblk m c 1 ⟨16 * b0 + (k + 1), h⟩) (msk2 (lenAt m c (⟨16 * b0 + r.val, by omega⟩ : Fin 32))) (arrL m c) (⟨16 * b0 + r.val, by omega⟩ : Fin 32) (k + 1) hk r d
      (fun j => maskAt2 m c b0 (k + 1) hb0 hk h r j d) (fun j => iblk1_apply m c b0 (k + 1) hb0 hk h r j d))).trans ?_
    rw [inv7 c b0 hb0 r d k (by omega) (Nat.lt_of_succ_lt h)]
    rfl

end Cert.KernelIdeal.SegValue
end
-- ==== Proof.KFinal.lean ====
import proofs.«118518_j39745627357645_2_alg».proof.Proof.Gen.KernelIdeal.Frame
import proofs.«118518_j39745627357645_2_alg».proof.Proof.KInv
import Idealize.ShloMosaic.Lib.Pipeline.Value
import Idealize.ShloMosaic.Lib.Tactic
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen

open Idealize.ShloMosaic.ValueIdx Cert.SegLoss
variable (m : (ℓ : Loc nD τ sig) → Buf (Elt Ideal) ℓ)

/-! The five result arrays after the run. Each batch tile's block is written back after its last time tile, and the
    two blocks tile the [32, 128] array: entry (b, d) is the full sum of squares over time, or the maximum over all
    4096 positions of the masked entries (the running maximum's start from the fill is absorbed because some
    position of every row lies outside the segment). -/

theorem idx_out : ∀ t : Fin cfg0.N, win0_3.index t 0 = t.val / 16 ∧ win0_3.index t 1 = 0
    ∧ win0_4.index t 0 = t.val / 16 ∧ win0_4.index t 1 = 0
    ∧ win0_5.index t 0 = t.val / 16 ∧ win0_5.index t 1 = 0
    ∧ win0_6.index t 0 = t.val / 16 ∧ win0_6.index t 1 = 0
    ∧ win0_7.index t 0 = t.val / 16 ∧ win0_7.index t 1 = 0 :=
  (by decide +kernel : ∀ t : Fin grid0.N, _)

/-- The sum of squared differences over time, from the zero fill. -/
def GS (c : Dev nD) : S32x128.Idx → EReal := fun i => zeroE + ∑ t : Fin 4096, sqAt m c (i 0) (i 1) t

/-- The maximum over time of an array's masked entries. -/
def GM (msk : BitVec 32 → BitVec 32 → BitVec 1) (x : S32x4096x128.Idx → EReal) (c : Dev nD) : S32x128.Idx → EReal :=
  fun i => (Finset.univ : Finset (Fin 4096)).fold max ninfE (mval (msk (lenAt m c (i 0))) x (i 0) (i 1))

/-- A position outside the segment holds the fill. -/
theorem mval_fill (msk : BitVec 32 → BitVec 1) (x : S32x4096x128.Idx → EReal) (b : Fin 32) (d : Fin 128)
    (h : ∃ t : Fin 4096, msk (BitVec.ofNat 32 t.val) = 0#1) : ∃ t, mval msk x b d t = fillE := by
  obtain ⟨t, ht⟩ := h
  exact ⟨t, by unfold mval; rw [ht]; exact if_neg (by decide)⟩

theorem flushed3_eq (c : Dev nD) (t : Fin cfg0.N) (hf : (cfg0.win 3).flush t = true) :
    (dats m 0 c).flushed 3 t = ((cfg0.win 3).blk t).view.read (Elt Ideal) (GS m c) := by
  have hN : cfg0.N = 32 := N_0
  have h15 : t.val % 16 = 15 := (flush0_3 t).mp hf
  obtain ⟨n, hn⟩ := t
  dsimp only at h15
  obtain ⟨b0, hb0, rfl⟩ : ∃ b0, b0 < 2 ∧ n = 16 * b0 + 15 := ⟨n / 16, by omega, by omega⟩
  have hi := idx_out ⟨16 * b0 + 15, hn⟩
  dsimp only at hi
  show (cfg0.win 3).cut (grid0.coords ⟨16 * b0 + 15, hn⟩) ((dats m 0 c).after 3 ⟨16 * b0 + 15, hn⟩) = _
  rw [after0_3]
  funext y
  rw [View.read_apply]
  have hy0 : (y 0).val < 16 := (y 0).isLt
  have hy1 : (y 1).val < 128 := (y 1).isLt
  have eL : (cfg0.win 3).xinj (grid0.coords ⟨16 * b0 + 15, hn⟩) y = ix2 (⟨(y 0).val, hy0⟩ : Fin 16) (⟨(y 1).val, hy1⟩ : Fin 128) := by
    funext a; apply Fin.ext
    match a with
    | ⟨0, _⟩ => rfl
    | ⟨1, _⟩ => rfl
  have eR : ((cfg0.win 3).blk ⟨16 * b0 + 15, hn⟩).view.emb y
      = ix2 (⟨16 * b0 + (y 0).val, by omega⟩ : Fin 32) (⟨(y 1).val, hy1⟩ : Fin 128) := by
    funext a; apply Fin.ext
    match a with
    | ⟨0, _⟩ =>
      show win0_3.index ⟨16 * b0 + 15, hn⟩ 0 * 16 + 1 * (y 0).val = 16 * b0 + (y 0).val
      rw [hi.1]; omega
    | ⟨1, _⟩ =>
      show win0_3.index ⟨16 * b0 + 15, hn⟩ 1 * 128 + 1 * (y 1).val = (y 1).val
      rw [hi.2.1]; omega
  show (outsAt0 m c (16 * b0 + 15) hn).1 ((cfg0.win 3).xinj (grid0.coords ⟨16 * b0 + 15, hn⟩) y)
    = (GS m c) (((cfg0.win 3).blk ⟨16 * b0 + 15, hn⟩).view.emb y)
  rw [eL, eR, inv3 m c b0 hb0 ⟨(y 0).val, hy0⟩ ⟨(y 1).val, hy1⟩ 15 (by omega) hn, sum_bridge']
  rfl

theorem cover3 (i : S32x128.Idx) :
    ∃ t : Fin cfg0.N, (cfg0.win 3).flush t = true ∧ i ∈ ((cfg0.win 3).blk t).view.set := by
  have hN : cfg0.N = 32 := N_0
  have hi0 : (i 0).val < 32 := (i 0).isLt
  have hi1 : (i 1).val < 128 := (i 1).isLt
  have hlt : 16 * ((i 0).val / 16) + 15 < cfg0.N := by omega
  refine ⟨⟨16 * ((i 0).val / 16) + 15, hlt⟩, (flush0_3 _).mpr (by show (16 * ((i 0).val / 16) + 15) % 16 = 15; omega), ?_⟩
  have hx := idx_out ⟨16 * ((i 0).val / 16) + 15, hlt⟩
  dsimp only at hx
  show i ∈ ((View.whole main_v1_0).slice (win0_3.rect ⟨16 * ((i 0).val / 16) + 15, hlt⟩)).set
  rw [View.set_slice_whole, Rect.mem_set_unit]
  intro a
  match a with
  | ⟨0, _⟩ =>
    show win0_3.index ⟨16 * ((i 0).val / 16) + 15, hlt⟩ 0 * 16 ≤ (i 0).val
      ∧ (i 0).val < win0_3.index ⟨16 * ((i 0).val / 16) + 15, hlt⟩ 0 * 16 + 16
    rw [hx.1]; omega
  | ⟨1, _⟩ =>
    show win0_3.index ⟨16 * ((i 0).val / 16) + 15, hlt⟩ 1 * 128 ≤ (i 1).val
      ∧ (i 1).val < win0_3.index ⟨16 * ((i 0).val / 16) + 15, hlt⟩ 1 * 128 + 128
    rw [hx.2.1]; omega

/-- Output 3's array after the run. -/
theorem final3 (c : Dev nD) : (dats m 0 c).arrAt 3 cfg0.N = GS m c :=
  (dats m 0 c).arrAt_eq_of_cover 3 (GS m c) (flushed3_eq m c) cover3

theorem flushed4_eq (c : Dev nD) (hw : ∀ b : Fin 32, ∃ t : Fin 4096, msk1 (lenAt m c b) (BitVec.ofNat 32 t.val) = 0#1) (t : Fin cfg0.N) (hf : (cfg0.win 4).flush t = true) :
    (dats m 0 c).flushed 4 t = ((cfg0.win 4).blk t).view.read (Elt Ideal) (GM m msk1 (arrO m c) c) := by
  have hN : cfg0.N = 32 := N_0
  have h15 : t.val % 16 = 15 := (flush0_4 t).mp hf
  obtain ⟨n, hn⟩ := t
  dsimp only at h15
  obtain ⟨b0, hb0, rfl⟩ : ∃ b0, b0 < 2 ∧ n = 16 * b0 + 15 := ⟨n / 16, by omega, by omega⟩
  have hi := idx_out ⟨16 * b0 + 15, hn⟩
  dsimp only at hi
  show (cfg0.win 4).cut (grid0.coords ⟨16 * b0 + 15, hn⟩) ((dats m 0 c).after 4 ⟨16 * b0 + 15, hn⟩) = _
  rw [after0_4]
  funext y
  rw [View.read_apply]
  have hy0 : (y 0).val < 16 := (y 0).isLt
  have hy1 : (y 1).val < 128 := (y 1).isLt
  have eL : (cfg0.win 4).xinj (grid0.coords ⟨16 * b0 + 15, hn⟩) y = ix2 (⟨(y 0).val, hy0⟩ : Fin 16) (⟨(y 1).val, hy1⟩ : Fin 128) := by
    funext a; apply Fin.ext
    match a with
    | ⟨0, _⟩ => rfl
    | ⟨1, _⟩ => rfl
  have eR : ((cfg0.win 4).blk ⟨16 * b0 + 15, hn⟩).view.emb y
      = ix2 (⟨16 * b0 + (y 0).val, by omega⟩ : Fin 32) (⟨(y 1).val, hy1⟩ : Fin 128) := by
    funext a; apply Fin.ext
    match a with
    | ⟨0, _⟩ =>
      show win0_4.index ⟨16 * b0 + 15, hn⟩ 0 * 16 + 1 * (y 0).val = 16 * b0 + (y 0).val
      rw [hi.2.2.1]; omega
    | ⟨1, _⟩ =>
      show win0_4.index ⟨16 * b0 + 15, hn⟩ 1 * 128 + 1 * (y 1).val = (y 1).val
      rw [hi.2.2.2.1]; omega
  show (outsAt0 m c (16 * b0 + 15) hn).2.1 ((cfg0.win 4).xinj (grid0.coords ⟨16 * b0 + 15, hn⟩) y)
    = (GM m msk1 (arrO m c) c) (((cfg0.win 4).blk ⟨16 * b0 + 15, hn⟩).view.emb y)
  rw [eL, eR, inv4 m c b0 hb0 ⟨(y 0).val, hy0⟩ ⟨(y 1).val, hy1⟩ 15 (by omega) hn, max_bridge' ninfE fillE _ (mval_fill (msk1 (lenAt m c _)) _ _ _ (hw _))]
  rfl

theorem cover4 (i : S32x128.Idx) :
    ∃ t : Fin cfg0.N, (cfg0.win 4).flush t = true ∧ i ∈ ((cfg0.win 4).blk t).view.set := by
  have hN : cfg0.N = 32 := N_0
  have hi0 : (i 0).val < 32 := (i 0).isLt
  have hi1 : (i 1).val < 128 := (i 1).isLt
  have hlt : 16 * ((i 0).val / 16) + 15 < cfg0.N := by omega
  refine ⟨⟨16 * ((i 0).val / 16) + 15, hlt⟩, (flush0_4 _).mpr (by show (16 * ((i 0).val / 16) + 15) % 16 = 15; omega), ?_⟩
  have hx := idx_out ⟨16 * ((i 0).val / 16) + 15, hlt⟩
  dsimp only at hx
  show i ∈ ((View.whole main_v1_1).slice (win0_4.rect ⟨16 * ((i 0).val / 16) + 15, hlt⟩)).set
  rw [View.set_slice_whole, Rect.mem_set_unit]
  intro a
  match a with
  | ⟨0, _⟩ =>
    show win0_4.index ⟨16 * ((i 0).val / 16) + 15, hlt⟩ 0 * 16 ≤ (i 0).val
      ∧ (i 0).val < win0_4.index ⟨16 * ((i 0).val / 16) + 15, hlt⟩ 0 * 16 + 16
    rw [hx.2.2.1]; omega
  | ⟨1, _⟩ =>
    show win0_4.index ⟨16 * ((i 0).val / 16) + 15, hlt⟩ 1 * 128 ≤ (i 1).val
      ∧ (i 1).val < win0_4.index ⟨16 * ((i 0).val / 16) + 15, hlt⟩ 1 * 128 + 128
    rw [hx.2.2.2.1]; omega

/-- Output 4's array after the run. -/
theorem final4 (c : Dev nD) (hw : ∀ b : Fin 32, ∃ t : Fin 4096, msk1 (lenAt m c b) (BitVec.ofNat 32 t.val) = 0#1) : (dats m 0 c).arrAt 4 cfg0.N = GM m msk1 (arrO m c) c :=
  (dats m 0 c).arrAt_eq_of_cover 4 (GM m msk1 (arrO m c) c) (flushed4_eq m c hw) cover4

theorem flushed5_eq (c : Dev nD) (hw : ∀ b : Fin 32, ∃ t : Fin 4096, msk1 (lenAt m c b) (BitVec.ofNat 32 t.val) = 0#1) (t : Fin cfg0.N) (hf : (cfg0.win 5).flush t = true) :
    (dats m 0 c).flushed 5 t = ((cfg0.win 5).blk t).view.read (Elt Ideal) (GM m msk1 (arrL m c) c) := by
  have hN : cfg0.N = 32 := N_0
  have h15 : t.val % 16 = 15 := (flush0_5 t).mp hf
  obtain ⟨n, hn⟩ := t
  dsimp only at h15
  obtain ⟨b0, hb0, rfl⟩ : ∃ b0, b0 < 2 ∧ n = 16 * b0 + 15 := ⟨n / 16, by omega, by omega⟩
  have hi := idx_out ⟨16 * b0 + 15, hn⟩
  dsimp only at hi
  show (cfg0.win 5).cut (grid0.coords ⟨16 * b0 + 15, hn⟩) ((dats m 0 c).after 5 ⟨16 * b0 + 15, hn⟩) = _
  rw [after0_5]
  funext y
  rw [View.read_apply]
  have hy0 : (y 0).val < 16 := (y 0).isLt
  have hy1 : (y 1).val < 128 := (y 1).isLt
  have eL : (cfg0.win 5).xinj (grid0.coords ⟨16 * b0 + 15, hn⟩) y = ix2 (⟨(y 0).val, hy0⟩ : Fin 16) (⟨(y 1).val, hy1⟩ : Fin 128) := by
    funext a; apply Fin.ext
    match a with
    | ⟨0, _⟩ => rfl
    | ⟨1, _⟩ => rfl
  have eR : ((cfg0.win 5).blk ⟨16 * b0 + 15, hn⟩).view.emb y
      = ix2 (⟨16 * b0 + (y 0).val, by omega⟩ : Fin 32) (⟨(y 1).val, hy1⟩ : Fin 128) := by
    funext a; apply Fin.ext
    match a with
    | ⟨0, _⟩ =>
      show win0_5.index ⟨16 * b0 + 15, hn⟩ 0 * 16 + 1 * (y 0).val = 16 * b0 + (y 0).val
      rw [hi.2.2.2.2.1]; omega
    | ⟨1, _⟩ =>
      show win0_5.index ⟨16 * b0 + 15, hn⟩ 1 * 128 + 1 * (y 1).val = (y 1).val
      rw [hi.2.2.2.2.2.1]; omega
  show (outsAt0 m c (16 * b0 + 15) hn).2.2.1 ((cfg0.win 5).xinj (grid0.coords ⟨16 * b0 + 15, hn⟩) y)
    = (GM m msk1 (arrL m c) c) (((cfg0.win 5).blk ⟨16 * b0 + 15, hn⟩).view.emb y)
  rw [eL, eR, inv5 m c b0 hb0 ⟨(y 0).val, hy0⟩ ⟨(y 1).val, hy1⟩ 15 (by omega) hn, max_bridge' ninfE fillE _ (mval_fill (msk1 (lenAt m c _)) _ _ _ (hw _))]
  rfl

theorem cover5 (i : S32x128.Idx) :
    ∃ t : Fin cfg0.N, (cfg0.win 5).flush t = true ∧ i ∈ ((cfg0.win 5).blk t).view.set := by
  have hN : cfg0.N = 32 := N_0
  have hi0 : (i 0).val < 32 := (i 0).isLt
  have hi1 : (i 1).val < 128 := (i 1).isLt
  have hlt : 16 * ((i 0).val / 16) + 15 < cfg0.N := by omega
  refine ⟨⟨16 * ((i 0).val / 16) + 15, hlt⟩, (flush0_5 _).mpr (by show (16 * ((i 0).val / 16) + 15) % 16 = 15; omega), ?_⟩
  have hx := idx_out ⟨16 * ((i 0).val / 16) + 15, hlt⟩
  dsimp only at hx
  show i ∈ ((View.whole main_v1_2).slice (win0_5.rect ⟨16 * ((i 0).val / 16) + 15, hlt⟩)).set
  rw [View.set_slice_whole, Rect.mem_set_unit]
  intro a
  match a with
  | ⟨0, _⟩ =>
    show win0_5.index ⟨16 * ((i 0).val / 16) + 15, hlt⟩ 0 * 16 ≤ (i 0).val
      ∧ (i 0).val < win0_5.index ⟨16 * ((i 0).val / 16) + 15, hlt⟩ 0 * 16 + 16
    rw [hx.2.2.2.2.1]; omega
  | ⟨1, _⟩ =>
    show win0_5.index ⟨16 * ((i 0).val / 16) + 15, hlt⟩ 1 * 128 ≤ (i 1).val
      ∧ (i 1).val < win0_5.index ⟨16 * ((i 0).val / 16) + 15, hlt⟩ 1 * 128 + 128
    rw [hx.2.2.2.2.2.1]; omega

/-- Output 5's array after the run. -/
theorem final5 (c : Dev nD) (hw : ∀ b : Fin 32, ∃ t : Fin 4096, msk1 (lenAt m c b) (BitVec.ofNat 32 t.val) = 0#1) : (dats m 0 c).arrAt 5 cfg0.N = GM m msk1 (arrL m c) c :=
  (dats m 0 c).arrAt_eq_of_cover 5 (GM m msk1 (arrL m c) c) (flushed5_eq m c hw) cover5

theorem flushed6_eq (c : Dev nD) (hw : ∀ b : Fin 32, ∃ t : Fin 4096, msk2 (lenAt m c b) (BitVec.ofNat 32 t.val) = 0#1) (t : Fin cfg0.N) (hf : (cfg0.win 6).flush t = true) :
    (dats m 0 c).flushed 6 t = ((cfg0.win 6).blk t).view.read (Elt Ideal) (GM m msk2 (arrO m c) c) := by
  have hN : cfg0.N = 32 := N_0
  have h15 : t.val % 16 = 15 := (flush0_6 t).mp hf
  obtain ⟨n, hn⟩ := t
  dsimp only at h15
  obtain ⟨b0, hb0, rfl⟩ : ∃ b0, b0 < 2 ∧ n = 16 * b0 + 15 := ⟨n / 16, by omega, by omega⟩
  have hi := idx_out ⟨16 * b0 + 15, hn⟩
  dsimp only at hi
  show (cfg0.win 6).cut (grid0.coords ⟨16 * b0 + 15, hn⟩) ((dats m 0 c).after 6 ⟨16 * b0 + 15, hn⟩) = _
  rw [after0_6]
  funext y
  rw [View.read_apply]
  have hy0 : (y 0).val < 16 := (y 0).isLt
  have hy1 : (y 1).val < 128 := (y 1).isLt
  have eL : (cfg0.win 6).xinj (grid0.coords ⟨16 * b0 + 15, hn⟩) y = ix2 (⟨(y 0).val, hy0⟩ : Fin 16) (⟨(y 1).val, hy1⟩ : Fin 128) := by
    funext a; apply Fin.ext
    match a with
    | ⟨0, _⟩ => rfl
    | ⟨1, _⟩ => rfl
  have eR : ((cfg0.win 6).blk ⟨16 * b0 + 15, hn⟩).view.emb y
      = ix2 (⟨16 * b0 + (y 0).val, by omega⟩ : Fin 32) (⟨(y 1).val, hy1⟩ : Fin 128) := by
    funext a; apply Fin.ext
    match a with
    | ⟨0, _⟩ =>
      show win0_6.index ⟨16 * b0 + 15, hn⟩ 0 * 16 + 1 * (y 0).val = 16 * b0 + (y 0).val
      rw [hi.2.2.2.2.2.2.1]; omega
    | ⟨1, _⟩ =>
      show win0_6.index ⟨16 * b0 + 15, hn⟩ 1 * 128 + 1 * (y 1).val = (y 1).val
      rw [hi.2.2.2.2.2.2.2.1]; omega
  show (outsAt0 m c (16 * b0 + 15) hn).2.2.2.1 ((cfg0.win 6).xinj (grid0.coords ⟨16 * b0 + 15, hn⟩) y)
    = (GM m msk2 (arrO m c) c) (((cfg0.win 6).blk ⟨16 * b0 + 15, hn⟩).view.emb y)
  rw [eL, eR, inv6 m c b0 hb0 ⟨(y 0).val, hy0⟩ ⟨(y 1).val, hy1⟩ 15 (by omega) hn, max_bridge' ninfE fillE _ (mval_fill (msk2 (lenAt m c _)) _ _ _ (hw _))]
  rfl

theorem cover6 (i : S32x128.Idx) :
    ∃ t : Fin cfg0.N, (cfg0.win 6).flush t = true ∧ i ∈ ((cfg0.win 6).blk t).view.set := by
  have hN : cfg0.N = 32 := N_0
  have hi0 : (i 0).val < 32 := (i 0).isLt
  have hi1 : (i 1).val < 128 := (i 1).isLt
  have hlt : 16 * ((i 0).val / 16) + 15 < cfg0.N := by omega
  refine ⟨⟨16 * ((i 0).val / 16) + 15, hlt⟩, (flush0_6 _).mpr (by show (16 * ((i 0).val / 16) + 15) % 16 = 15; omega), ?_⟩
  have hx := idx_out ⟨16 * ((i 0).val / 16) + 15, hlt⟩
  dsimp only at hx
  show i ∈ ((View.whole main_v1_3).slice (win0_6.rect ⟨16 * ((i 0).val / 16) + 15, hlt⟩)).set
  rw [View.set_slice_whole, Rect.mem_set_unit]
  intro a
  match a with
  | ⟨0, _⟩ =>
    show win0_6.index ⟨16 * ((i 0).val / 16) + 15, hlt⟩ 0 * 16 ≤ (i 0).val
      ∧ (i 0).val < win0_6.index ⟨16 * ((i 0).val / 16) + 15, hlt⟩ 0 * 16 + 16
    rw [hx.2.2.2.2.2.2.1]; omega
  | ⟨1, _⟩ =>
    show win0_6.index ⟨16 * ((i 0).val / 16) + 15, hlt⟩ 1 * 128 ≤ (i 1).val
      ∧ (i 1).val < win0_6.index ⟨16 * ((i 0).val / 16) + 15, hlt⟩ 1 * 128 + 128
    rw [hx.2.2.2.2.2.2.2.1]; omega

/-- Output 6's array after the run. -/
theorem final6 (c : Dev nD) (hw : ∀ b : Fin 32, ∃ t : Fin 4096, msk2 (lenAt m c b) (BitVec.ofNat 32 t.val) = 0#1) : (dats m 0 c).arrAt 6 cfg0.N = GM m msk2 (arrO m c) c :=
  (dats m 0 c).arrAt_eq_of_cover 6 (GM m msk2 (arrO m c) c) (flushed6_eq m c hw) cover6

theorem flushed7_eq (c : Dev nD) (hw : ∀ b : Fin 32, ∃ t : Fin 4096, msk2 (lenAt m c b) (BitVec.ofNat 32 t.val) = 0#1) (t : Fin cfg0.N) (hf : (cfg0.win 7).flush t = true) :
    (dats m 0 c).flushed 7 t = ((cfg0.win 7).blk t).view.read (Elt Ideal) (GM m msk2 (arrL m c) c) := by
  have hN : cfg0.N = 32 := N_0
  have h15 : t.val % 16 = 15 := (flush0_7 t).mp hf
  obtain ⟨n, hn⟩ := t
  dsimp only at h15
  obtain ⟨b0, hb0, rfl⟩ : ∃ b0, b0 < 2 ∧ n = 16 * b0 + 15 := ⟨n / 16, by omega, by omega⟩
  have hi := idx_out ⟨16 * b0 + 15, hn⟩
  dsimp only at hi
  show (cfg0.win 7).cut (grid0.coords ⟨16 * b0 + 15, hn⟩) ((dats m 0 c).after 7 ⟨16 * b0 + 15, hn⟩) = _
  rw [after0_7]
  funext y
  rw [View.read_apply]
  have hy0 : (y 0).val < 16 := (y 0).isLt
  have hy1 : (y 1).val < 128 := (y 1).isLt
  have eL : (cfg0.win 7).xinj (grid0.coords ⟨16 * b0 + 15, hn⟩) y = ix2 (⟨(y 0).val, hy0⟩ : Fin 16) (⟨(y 1).val, hy1⟩ : Fin 128) := by
    funext a; apply Fin.ext
    match a with
    | ⟨0, _⟩ => rfl
    | ⟨1, _⟩ => rfl
  have eR : ((cfg0.win 7).blk ⟨16 * b0 + 15, hn⟩).view.emb y
      = ix2 (⟨16 * b0 + (y 0).val, by omega⟩ : Fin 32) (⟨(y 1).val, hy1⟩ : Fin 128) := by
    funext a; apply Fin.ext
    match a with
    | ⟨0, _⟩ =>
      show win0_7.index ⟨16 * b0 + 15, hn⟩ 0 * 16 + 1 * (y 0).val = 16 * b0 + (y 0).val
      rw [hi.2.2.2.2.2.2.2.2.1]; omega
    | ⟨1, _⟩ =>
      show win0_7.index ⟨16 * b0 + 15, hn⟩ 1 * 128 + 1 * (y 1).val = (y 1).val
      rw [hi.2.2.2.2.2.2.2.2.2]; omega
  show (outsAt0 m c (16 * b0 + 15) hn).2.2.2.2 ((cfg0.win 7).xinj (grid0.coords ⟨16 * b0 + 15, hn⟩) y)
    = (GM m msk2 (arrL m c) c) (((cfg0.win 7).blk ⟨16 * b0 + 15, hn⟩).view.emb y)
  rw [eL, eR, inv7 m c b0 hb0 ⟨(y 0).val, hy0⟩ ⟨(y 1).val, hy1⟩ 15 (by omega) hn, max_bridge' ninfE fillE _ (mval_fill (msk2 (lenAt m c _)) _ _ _ (hw _))]
  rfl

theorem cover7 (i : S32x128.Idx) :
    ∃ t : Fin cfg0.N, (cfg0.win 7).flush t = true ∧ i ∈ ((cfg0.win 7).blk t).view.set := by
  have hN : cfg0.N = 32 := N_0
  have hi0 : (i 0).val < 32 := (i 0).isLt
  have hi1 : (i 1).val < 128 := (i 1).isLt
  have hlt : 16 * ((i 0).val / 16) + 15 < cfg0.N := by omega
  refine ⟨⟨16 * ((i 0).val / 16) + 15, hlt⟩, (flush0_7 _).mpr (by show (16 * ((i 0).val / 16) + 15) % 16 = 15; omega), ?_⟩
  have hx := idx_out ⟨16 * ((i 0).val / 16) + 15, hlt⟩
  dsimp only at hx
  show i ∈ ((View.whole main_v1_4).slice (win0_7.rect ⟨16 * ((i 0).val / 16) + 15, hlt⟩)).set
  rw [View.set_slice_whole, Rect.mem_set_unit]
  intro a
  match a with
  | ⟨0, _⟩ =>
    show win0_7.index ⟨16 * ((i 0).val / 16) + 15, hlt⟩ 0 * 16 ≤ (i 0).val
      ∧ (i 0).val < win0_7.index ⟨16 * ((i 0).val / 16) + 15, hlt⟩ 0 * 16 + 16
    rw [hx.2.2.2.2.2.2.2.2.1]; omega
  | ⟨1, _⟩ =>
    show win0_7.index ⟨16 * ((i 0).val / 16) + 15, hlt⟩ 1 * 128 ≤ (i 1).val
      ∧ (i 1).val < win0_7.index ⟨16 * ((i 0).val / 16) + 15, hlt⟩ 1 * 128 + 128
    rw [hx.2.2.2.2.2.2.2.2.2]; omega

/-- Output 7's array after the run. -/
theorem final7 (c : Dev nD) (hw : ∀ b : Fin 32, ∃ t : Fin 4096, msk2 (lenAt m c b) (BitVec.ofNat 32 t.val) = 0#1) : (dats m 0 c).arrAt 7 cfg0.N = GM m msk2 (arrL m c) c :=
  (dats m 0 c).arrAt_eq_of_cover 7 (GM m msk2 (arrL m c) c) (flushed7_eq m c hw) cover7

end Cert.KernelIdeal.SegValue
end
-- ==== Proof.Tail.lean ====
/-
  The last stretch of both programs, as one function.

  From the mean squared difference `base` (a scalar), the four arrays of segment maxima over time
  (first-half and second-half segments, of the outputs and of the labels, each [32, 128]) and the lengths,
  both programs compute

    base + 1/2 · ( (∑_b valid_b · (∑_d (mfo − mfl)²[b,d]) / 128) / 32 + (∑_b valid_b · (∑_d (mso − msl)²[b,d]) / 128) / 32 ),

  with `valid_b = 1` when `lengths_b ≥ 2` and `0` otherwise, by the same host operations in the same order.
  The function is stated once here so that the comparison of the two programs never opens it.
-/
import Idealize.ShloMosaic.Lib.StableHlo
import Idealize.ShloMosaic.PureOps

noncomputable section

namespace Cert.SegLoss

open Idealize.ShloMosaic

abbrev S_ : Shape := ⟨0, ![]⟩
abbrev S32 : Shape := ⟨1, ![32]⟩
abbrev S32x128 : Shape := ⟨2, ![32, 128]⟩

/-- The shape relations the last stretch's operations take. -/
structure TailFacts : Prop where
  bcast_S_S32 : S_.BroadcastsInDim S32 (![] : Fin 0 → Fin S32.rank)
  reducesTo_S32x128_S32_d1 : S32x128.ReducesTo [1] S32
  reducesTo_S32_S_d0 : S32.ReducesTo [0] S_
  h_S_ : 0 < S_.numel

variable {F : FTy → Type} [FloatOps F]

/-- `valid_b`: one where the length is at least two, zero elsewhere, as a float. -/
def valid (h : TailFacts) (len : IVec S32 32) : FVec F S32 .f32 :=
  uitofp .f32 (cmpi .sge len (broadcastInDim S32 ![] h.bcast_S_S32 (constantI S_ 32 2#32)))

/-- One segment's loss: the mean over the 128 features of the squared difference, weighted by `valid`,
    summed over the batch and divided by the batch size 32. -/
def segLoss (h : TailFacts) (len : IVec S32 32) (d : FVec F S32x128 .f32) : FVec F S_ .f32 :=
  Host.divf
    (Host.reduceAdd
      (mulf (valid (F := F) h len)
        (Host.divf (Host.reduceAdd (mulf d d) (constant S_ .f32 0x00000000#32) h.reducesTo_S32x128_S32_d1 h.h_S_)
          (broadcastInDim S32 ![] h.bcast_S_S32 (constant S_ .f32 0x43000000#32))))
      (constant S_ .f32 0x00000000#32) h.reducesTo_S32_S_d0 h.h_S_)
    (constant S_ .f32 0x42000000#32)

/-- The last stretch: `base + 1/2 · (loss of the first-half segment + loss of the second-half segment)`. -/
def tail (h : TailFacts) (base : FVec F S_ .f32) (mfo mfl mso msl : FVec F S32x128 .f32) (len : IVec S32 32) :
    FVec F S_ .f32 :=
  addf base
    (mulf (constant S_ .f32 0x3F000000#32)
      (addf (segLoss h len (subf mfo mfl)) (segLoss h len (subf mso msl))))

end Cert.SegLoss

end
-- ==== Proof.KTail.lean ====
/-
  The kernel program's last stretch, read back.

  After the region the kernel program runs the same host operations as the host program's last stretch: from the
  [32, 128] array of per-(row, feature) sums it forms the mean squared difference, and from the four arrays of
  segment maxima and the lengths the two segment losses. Reading each operation's result at its own buffer, and
  the region's five result arrays and the lengths at theirs, gives the last stretch's function of those six values.
-/
import proofs.«118518_j39745627357645_2_alg».proof.Proof.Gen.KernelIdeal.Frame
import proofs.«118518_j39745627357645_2_alg».proof.Proof.Tail

set_option maxRecDepth 16384

noncomputable section

namespace Cert.KernelIdeal.SegValue

open Idealize.ShloMosaic Idealize.ShloMosaic.TcCoe
open Cert.KernelIdeal Cert.KernelIdeal.Gen

variable {F : FTy → Type} [FloatOps F]

/-- The shape relations of the last stretch, from the kernel program's proved facts. -/
theorem ktf : Cert.SegLoss.TailFacts :=
  ⟨Gen.bcast_S_S32, Gen.reducesTo_S32x128_S32_d1, Gen.reducesTo_S32_S_d0, Gen.h_S_⟩

variable (m : (ℓ : Loc nD τ sig) → Buf (Elt F) ℓ)

/-- Window `w`'s array as the region leaves it. -/
abbrev A (c : Dev nD) (w : Fin 8) := (dats m 0 c).arrAt w cfg0.N

/-- The value the kernel program leaves in its result buffer is the last stretch's function of the region's five
    result arrays and the lengths. -/
theorem tail_eq (c : Dev nD) :
    Pipeline.afterTail₀ cfgs (dats m) 0 (V0 m) [hostOps1] c main_v25
      = Cert.SegLoss.tail ktf
          (Host.divf (Host.reduceAdd (A m c 3 : FVec F Cert.SegLoss.S32x128 .f32) (constant S_ .f32 0x00000000#32) Gen.reducesTo_S32x128_S_d0_1 Gen.h_S_)
            (constant S_ .f32 0x4B800000#32))
          (A m c 4) (A m c 5) (A m c 6) (A m c 7) (m ((c : Thread nD τ).loc main_arg2)) := by
  unfold Pipeline.afterTail₀
  show StableHlo.after hostOps1 _ (Proc.devRef .tc main_v25) = _
  after_results_simp
  have e3 : Pipeline.withArrays (cfgs 0).spec c (V0 m c) (fun w => (dats m 0 c).arrAt w (cfgs 0).N) (Proc.devRef .tc main_v1_0) = A m c 3 :=
    Pipeline.withArrays_arr spec0 launch0.win.arr_inj c _ _ 3
  have e4 : Pipeline.withArrays (cfgs 0).spec c (V0 m c) (fun w => (dats m 0 c).arrAt w (cfgs 0).N) (Proc.devRef .tc main_v1_1) = A m c 4 :=
    Pipeline.withArrays_arr spec0 launch0.win.arr_inj c _ _ 4
  have e5 : Pipeline.withArrays (cfgs 0).spec c (V0 m c) (fun w => (dats m 0 c).arrAt w (cfgs 0).N) (Proc.devRef .tc main_v1_2) = A m c 5 :=
    Pipeline.withArrays_arr spec0 launch0.win.arr_inj c _ _ 5
  have e6 : Pipeline.withArrays (cfgs 0).spec c (V0 m c) (fun w => (dats m 0 c).arrAt w (cfgs 0).N) (Proc.devRef .tc main_v1_3) = A m c 6 :=
    Pipeline.withArrays_arr spec0 launch0.win.arr_inj c _ _ 6
  have e7 : Pipeline.withArrays (cfgs 0).spec c (V0 m c) (fun w => (dats m 0 c).arrAt w (cfgs 0).N) (Proc.devRef .tc main_v1_4) = A m c 7 :=
    Pipeline.withArrays_arr spec0 launch0.win.arr_inj c _ _ 7
  have ea : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  first
    | (rw [e3, e4, e5, e6, e7, ea]; rfl)
    | (simp only [e3, e4, e5, e6, e7, ea]; rfl)

end Cert.KernelIdeal.SegValue
-- ==== Proof.RefDefs.lean ====
/-
  The reference program's values, as functions of its three arguments.

  The reference computes, from the outputs `o`, the labels `l` (both [32, 4096, 128]) and the lengths `len` ([32]):
  the mean squared difference `base o l`; the two masks over (batch, time) — `m1 len`: time before half the length,
  `m2 len`: time from half the length up to the length, where "half" is the floor division by two written out with
  the truncating quotient, the signs and the remainder (`half`) —; and, for an array `x` and a mask, the maximum over
  time of `x` where the mask is set and of the filling constant elsewhere (`segmax`). Each definition is the
  composition of the program's own operations in the program's order, so that reading the run back is a
  comparison of equal terms.
-/
import proofs.«118518_j39745627357645_2_alg».proof.Proof.Tail
import proofs.«118518_j39745627357645_2_alg».proof.Proof.Gen.ReferenceIdeal

noncomputable section

namespace Cert.SegLoss.Ref

open Idealize.ShloMosaic
open Cert.ReferenceIdeal (S32x4096x128 S4096 S1x4096 S32x1 S32x4096 S32x4096x1)
open Cert.ReferenceIdeal.Facts₀

variable {F : FTy → Type} [FloatOps F]

/-- The shape relations of the last stretch, from the reference program's proved facts. -/
theorem tf : Cert.SegLoss.TailFacts :=
  ⟨bcast_S_S32, reducesTo_S32x128_S32_d1, reducesTo_S32_S_d0, h_S_⟩

/-- The mean squared difference: the sum over all elements of `(o − l)²`, from zero, divided by
    `32 · 4096 · 128 = 2²⁴` (the constant `0x4B800000`). -/
def base (o l : FVec F S32x4096x128 .f32) : FVec F S_ .f32 :=
  Host.divf
    (Host.reduceAdd (mulf (subf o l) (subf o l)) (constant S_ .f32 0x00000000#32)
      reducesTo_S32x4096x128_S_d0_1_2 h_S_)
    (constant S_ .f32 0x4B800000#32)

/-- The lengths as a column [32, 1]. -/
def lenCol (len : IVec S32 32) : IVec S32x1 32 :=
  broadcastInDim S32x1 ![0] bcast_S32_S32x1_0 len

/-- The constant two, as the floor division's converted second operand. -/
def two : IVec S_ 32 := id (constantI S_ 32 2#32)

/-- Half the length, rounded down: the truncating quotient by two, less one where the signs of the length and
    of two differ and the remainder is not zero. -/
def half (len : IVec S32 32) : IVec S32x1 32 :=
  select
    (andi
      (cmpi .ne (signi (lenCol len)) (broadcastInDim S32x1 ![] bcast_S_S32x1 (signi two)))
      (cmpi .ne (Host.remsi (lenCol len) (broadcastInDim S32x1 ![] bcast_S_S32x1 two))
        (broadcastInDim S32x1 ![] bcast_S_S32x1 (constantI S_ 32 0#32))))
    (subi (Host.divsi (lenCol len) (broadcastInDim S32x1 ![] bcast_S_S32x1 two))
      (broadcastInDim S32x1 ![] bcast_S_S32x1 (constantI S_ 32 1#32)))
    (Host.divsi (lenCol len) (broadcastInDim S32x1 ![] bcast_S_S32x1 two))

/-- The time position, at every (batch, time). -/
def pos : IVec S32x4096 32 :=
  broadcastInDim S32x4096 ![0, 1] bcast_S1x4096_S32x4096_0_1
    (broadcastInDim S1x4096 ![1] bcast_S4096_S1x4096_1 (iotaInDim S4096 32 0))

/-- The first-half mask: time before half the length. -/
def m1 (len : IVec S32 32) : IVec S32x4096 1 :=
  cmpi .slt pos (broadcastInDim S32x4096 ![0, 1] bcast_S32x1_S32x4096_0_1 (half len))

/-- The second-half mask: time from half the length on, and before the length. -/
def m2 (len : IVec S32 32) : IVec S32x4096 1 :=
  andi
    (cmpi .sge pos (broadcastInDim S32x4096 ![0, 1] bcast_S32x1_S32x4096_0_1 (half len)))
    (cmpi .slt pos (broadcastInDim S32x4096 ![0, 1] bcast_S32x1_S32x4096_0_1 (lenCol len)))

/-- The masked maximum over time: at every (batch, feature), the maximum, from `−∞` (the constant `0xFF800000`),
    over time of `x` where the mask is set and of the filling constant `0xF149F2CA` elsewhere. -/
def segmax (x : FVec F S32x4096x128 .f32) (mask : IVec S32x4096 1) : FVec F S32x128 .f32 :=
  Host.reduce FloatOps.maximumf
    (select
      (broadcastInDim S32x4096x128 ![0, 1, 2] bcast_S32x4096x1_S32x4096x128_0_1_2
        (broadcastInDim S32x4096x1 ![0, 1] bcast_S32x4096_S32x4096x1_0_1 mask))
      x
      (broadcastInDim S32x4096x128 ![] bcast_S_S32x4096x128 (constant S_ .f32 0xF149F2CA#32)))
    (constant S_ .f32 0xFF800000#32) reducesTo_S32x4096x128_S32x128_d1 h_S_

end Cert.SegLoss.Ref

end
-- ==== Proof.RefRead.lean ====
/-
  The reference's values read at an index, at the extended reals.

  The mean squared difference at its one index is the sum over all elements of the squared differences, divided by the
  constant; a masked maximum at (batch b, feature d) is the maximum, from the initial constant, over the 4096 times t of
  the array at (b, t, d) where the mask at (b, t) is set and of the filling constant elsewhere; the two masks at (b, t)
  compare the word of t with half the length of b (rounded down, by the truncating quotient, the signs and the
  remainder) and with the length.
-/
import proofs.«118518_j39745627357645_2_alg».proof.Proof.RefDefs
import Idealize.ShloMosaic.Lib.IdealHost
import Idealize.ShloMosaic.Lib.Pipeline.Value
import Idealize.ShloMosaic.Lib.ValueIdx

noncomputable section

namespace Cert.SegLoss.Ref

open Idealize.ShloMosaic Idealize.ShloMosaic.ValueIdx
open Cert.ReferenceIdeal (S32x4096x128 S4096 S1x4096 S32x1 S32x4096 S32x4096x1)
open Cert.ReferenceIdeal.Facts₀
open scoped BigOperators

/-! ## The masks -/

/-- The sign of a word as a word: zero at zero, minus one below, one above. -/
def sgnW (x : BitVec 32) : BitVec 32 := if x = 0 then 0 else if x.msb then -1 else 1

/-- Half a word, rounded down, as the program computes it: the truncating quotient by two, less one where the
    word's sign differs from the sign of two and the remainder is not zero. -/
def halfW (x : BitVec 32) : BitVec 32 :=
  Scalar.select
    (IntOp.andi (IntOp.cmpi .ne (sgnW x) (sgnW 2#32)) (IntOp.cmpi .ne (IntOp.remsi .host x 2#32) 0#32))
    (IntOp.subi (IntOp.divsi .host x 2#32) 1#32)
    (IntOp.divsi .host x 2#32)

/-- The column of lengths at (b, ·) is the length of b. -/
theorem lenCol_apply (len : IVec S32 32) (b : Fin 32) (u : Fin 1) : lenCol len (ix2 b u) = len (ix1 b) :=
  broadcastInDim_apply _ _ _ _ (ix1 b) (fun a => match a with | ⟨0, _⟩ => rfl)

/-- A scalar broadcast to the column reads the scalar. -/
theorem col_scalar_apply (c : IVec S_ 32) (b : Fin 32) (u : Fin 1) :
    broadcastInDim S32x1 ![] bcast_S_S32x1 c (ix2 b u) = c ix0 :=
  broadcastInDim_scalar_apply _ c _

/-- Half the length at (b, ·). -/
theorem half_apply (len : IVec S32 32) (b : Fin 32) (u : Fin 1) : half len (ix2 b u) = halfW (len (ix1 b)) := by
  unfold half halfW
  simp only [select, andi, cmpi, subi, signi, Host.remsi, Host.divsi, lenCol_apply, col_scalar_apply]
  rfl

/-- The time position at (b, t) is the word of t. -/
theorem pos_apply (b : Fin 32) (t : Fin 4096) : pos (ix2 b t) = BitVec.ofNat 32 t.val := by
  unfold pos
  rw [broadcastInDim_apply _ _ _ _ (ix2 (0 : Fin 1) t) (fun a => match a with | ⟨0, _⟩ => rfl | ⟨1, _⟩ => rfl),
    broadcastInDim_apply _ _ _ _ (ix1 t) (fun a => match a with | ⟨0, _⟩ => rfl)]
  rfl

/-- A column broadcast along time reads the column at (b, 0). -/
theorem row_bcast_apply (x : IVec S32x1 32) (b : Fin 32) (t : Fin 4096) :
    broadcastInDim S32x4096 ![0, 1] bcast_S32x1_S32x4096_0_1 x (ix2 b t) = x (ix2 b (0 : Fin 1)) :=
  broadcastInDim_apply _ _ _ _ (ix2 b (0 : Fin 1)) (fun a => match a with | ⟨0, _⟩ => rfl | ⟨1, _⟩ => rfl)

/-- The first-half mask at (b, t): t before half the length of b. -/
theorem m1_apply (len : IVec S32 32) (b : Fin 32) (t : Fin 4096) :
    m1 len (ix2 b t) = IntOp.cmpi .slt (BitVec.ofNat 32 t.val) (halfW (len (ix1 b))) := by
  show IntOp.cmpi .slt (pos (ix2 b t))
      (broadcastInDim S32x4096 ![0, 1] bcast_S32x1_S32x4096_0_1 (half len) (ix2 b t)) = _
  rw [pos_apply, row_bcast_apply, half_apply]

/-- The second-half mask at (b, t): t from half the length of b on, and before the length. -/
theorem m2_apply (len : IVec S32 32) (b : Fin 32) (t : Fin 4096) :
    m2 len (ix2 b t)
      = IntOp.andi (IntOp.cmpi .sge (BitVec.ofNat 32 t.val) (halfW (len (ix1 b))))
          (IntOp.cmpi .slt (BitVec.ofNat 32 t.val) (len (ix1 b))) := by
  show IntOp.andi
      (IntOp.cmpi .sge (pos (ix2 b t)) (broadcastInDim S32x4096 ![0, 1] bcast_S32x1_S32x4096_0_1 (half len) (ix2 b t)))
      (IntOp.cmpi .slt (pos (ix2 b t)) (broadcastInDim S32x4096 ![0, 1] bcast_S32x1_S32x4096_0_1 (lenCol len) (ix2 b t))) = _
  rw [pos_apply, row_bcast_apply, row_bcast_apply, half_apply, lenCol_apply]

/-! ## The masked maximum -/

/-- A mask broadcast along the features reads the mask at (b, t). -/
theorem mask_bcast_apply (mask : IVec S32x4096 1) (b : Fin 32) (t : Fin 4096) (d : Fin 128) :
    broadcastInDim S32x4096x128 ![0, 1, 2] bcast_S32x4096x1_S32x4096x128_0_1_2
        (broadcastInDim S32x4096x1 ![0, 1] bcast_S32x4096_S32x4096x1_0_1 mask) (ix3 b t d)
      = mask (ix2 b t) := by
  rw [broadcastInDim_apply _ _ _ _ (ix3 b t (0 : Fin 1)) (fun a => match a with | ⟨0, _⟩ => rfl | ⟨1, _⟩ => rfl | ⟨2, _⟩ => rfl),
    broadcastInDim_apply _ _ _ _ (ix2 b t) (fun a => match a with | ⟨0, _⟩ => rfl | ⟨1, _⟩ => rfl)]

/-- The source index over (b, d) with time t inserted is (b, t, d). -/
theorem lift_time (h : S32x4096x128.Reduces [1] Cert.SegLoss.S32x128) (b : Fin 32) (d : Fin 128) (t : Fin 4096) :
    h.lift (ix2 b d) t = ix3 b t d :=
  funext fun a => match a with | ⟨0, _⟩ => rfl | ⟨1, _⟩ => rfl | ⟨2, _⟩ => rfl

/-- The masked maximum at (b, d): the maximum from the initial constant over the times t of the array at (b, t, d) where
    the mask at (b, t) is set, and of the filling constant elsewhere. -/
theorem segmax_apply (x : FVec Ideal S32x4096x128 .f32) (mask : IVec S32x4096 1) (b : Fin 32) (d : Fin 128) :
    segmax x mask (ix2 b d)
      = (Finset.univ : Finset (Fin 4096)).fold max (Ideal.ofBits .f32 0xFF800000#32)
          (fun t => if mask (ix2 b t) = 1 then x (ix3 b t d) else Ideal.ofBits .f32 0xF149F2CA#32) := by
  have h : S32x4096x128.Reduces [1] Cert.SegLoss.S32x128 := by decide
  unfold segmax
  rw [Host.reduce_eq_fold_single FloatOps.maximumf _ _ reducesTo_S32x4096x128_S32x128_d1 h h_S_]
  refine congrArg (fun g => (Finset.univ : Finset (Fin 4096)).fold max (Ideal.ofBits .f32 0xFF800000#32) g)
    (funext fun (t : Fin 4096) => ?_)
  have e : h.lift (ix2 b d) t = ix3 b t d := lift_time h b d t
  show select _ x _ (h.lift (ix2 b d) t) = _
  rw [e, select_apply, mask_bcast_apply, broadcastInDim_scalar_apply]
  rfl

/-! ## The mean squared difference -/

/-- The mean squared difference at its one index: the sum over every element of the squared difference, divided by the
    constant `0x4B800000`. -/
theorem base_apply (o l : FVec Ideal S32x4096x128 .f32) (j : S_.Idx) :
    base o l j
      = Ideal.div (∑ i : S32x4096x128.Idx, (o i - l i) * (o i - l i)) (Ideal.ofBits .f32 0x4B800000#32) := by
  unfold base
  rw [hostDivf_apply, hostReduceAdd_apply, Ideal.hostReduceAdd_total _ (fun b => b.elim0)]
  show Ideal.div (Ideal.ofBits .f32 0x00000000#32 + ∑ i : S32x4096x128.Idx, (o i - l i) * (o i - l i)) _ = _
  rw [Ideal.ofBits_zero_f32, zero_add]
  rfl

end Cert.SegLoss.Ref

end
-- ==== Proof.SegOut.lean ====
/-
  Where the segment tests fail.

  The reference's floor division by two is the kernel's, word for word up to the spelling of the sign. For a length
  of at most 4096 the last position, 4095, is not below the half, so the first-half segment never covers every
  position; and whatever the length word, the second-half test "at or after the half, and before the length" fails at
  position 0 or at position 1: at 0 when the length is not positive (0 is not before it) and when it is at least two
  (the half is then at least one, so 0 is not at or after it), at 1 when the length is one.
-/
import proofs.«118518_j39745627357645_2_alg».proof.Proof.IntFacts
import proofs.«118518_j39745627357645_2_alg».proof.Proof.RefRead

namespace Cert.SegLoss

open Idealize.ShloMosaic

/-- The reference's floor division by two, read per element, is the kernel's. -/
theorem halfW_eq (x : BitVec 32) : Ref.halfW x = halfK x :=
  show halfR x = halfK x from (halfK_eq_halfR x).symm

/-- Position 4095 is not below the half of a length of at most 4096. -/
theorem seg1_out (x : BitVec 32) (hx : x.toInt ≤ 4096) :
    IntOp.cmpi .slt (BitVec.ofNat 32 4095) (halfK x) = 0#1 := by
  rw [halfK_eq_halfR]
  exact halfR_le x hx

theorem slt_eq_false {a b : BitVec 32} (h : ¬ a.toInt < b.toInt) : a.slt b = false := by
  unfold BitVec.slt; exact decide_eq_false h

theorem sle_eq_false {a b : BitVec 32} (h : ¬ a.toInt ≤ b.toInt) : a.sle b = false := by
  unfold BitVec.sle; exact decide_eq_false h

theorem and_ofBool_of_left {p q : Bool} (h : p = false) : BitVec.ofBool p &&& BitVec.ofBool q = 0#1 := by
  subst h; cases q <;> rfl

theorem and_ofBool_of_right {p q : Bool} (h : q = false) : BitVec.ofBool p &&& BitVec.ofBool q = 0#1 := by
  subst h; cases p <;> rfl

/-- For every length word the second-half test fails at some position below 4096. -/
theorem seg2_out (x : BitVec 32) :
    ∃ t : Fin 4096, IntOp.andi (IntOp.cmpi .sge (BitVec.ofNat 32 t.val) (halfK x))
      (IntOp.cmpi .slt (BitVec.ofNat 32 t.val) x) = 0#1 := by
  rw [halfK_eq_halfR]
  have hh := halfR_toInt x
  have h0 : (BitVec.ofNat 32 0).toInt = 0 := by decide
  have h1 : (BitVec.ofNat 32 1).toInt = 1 := by decide
  by_cases hx1 : x.toInt = 1
  · refine ⟨⟨1, by omega⟩, ?_⟩
    show BitVec.ofBool ((halfR x).sle (BitVec.ofNat 32 1)) &&& BitVec.ofBool ((BitVec.ofNat 32 1).slt x) = 0#1
    exact and_ofBool_of_right (slt_eq_false (by omega))
  · refine ⟨⟨0, by omega⟩, ?_⟩
    show BitVec.ofBool ((halfR x).sle (BitVec.ofNat 32 0)) &&& BitVec.ofBool ((BitVec.ofNat 32 0).slt x) = 0#1
    by_cases hx0 : x.toInt ≤ 0
    · exact and_ofBool_of_right (slt_eq_false (by omega))
    · exact and_ofBool_of_left (sle_eq_false (by omega))

end Cert.SegLoss
-- ==== Proof.RefBridge.lean ====
/-
  The two masked maxima of the reference at (batch b, feature d), with the masks read at each time.

  The maximum over the first-half segment folds, over the 4096 times t, the array at (b, t, d) where the word of t is
  below half the length of b, and the filling constant elsewhere; over the second-half segment, where it is at or after
  the half and before the length. The half is the floor division by two in the kernel's spelling.
-/
import proofs.«118518_j39745627357645_2_alg».proof.Proof.RefRead
import proofs.«118518_j39745627357645_2_alg».proof.Proof.SegOut

noncomputable section

namespace Cert.SegLoss.Ref

open Idealize.ShloMosaic Idealize.ShloMosaic.ValueIdx
open Cert.ReferenceIdeal (S32x4096x128 S32x4096)

/-- The maximum over the first-half segment at (b, d). -/
theorem segmax1_apply (x : FVec Ideal S32x4096x128 .f32) (len : IVec S32 32) (b : Fin 32) (d : Fin 128) :
    segmax x (m1 len) (ix2 b d)
      = (Finset.univ : Finset (Fin 4096)).fold max (Ideal.ofBits .f32 0xFF800000#32)
          (fun t => if IntOp.cmpi .slt (BitVec.ofNat 32 t.val) (halfK (len (ix1 b))) = 1 then x (ix3 b t d)
            else Ideal.ofBits .f32 0xF149F2CA#32) := by
  rw [segmax_apply]
  refine congrArg (fun g => (Finset.univ : Finset (Fin 4096)).fold max (Ideal.ofBits .f32 0xFF800000#32) g)
    (funext fun t => ?_)
  rw [m1_apply, halfW_eq]

/-- The maximum over the second-half segment at (b, d). -/
theorem segmax2_apply (x : FVec Ideal S32x4096x128 .f32) (len : IVec S32 32) (b : Fin 32) (d : Fin 128) :
    segmax x (m2 len) (ix2 b d)
      = (Finset.univ : Finset (Fin 4096)).fold max (Ideal.ofBits .f32 0xFF800000#32)
          (fun t => if IntOp.andi (IntOp.cmpi .sge (BitVec.ofNat 32 t.val) (halfK (len (ix1 b))))
              (IntOp.cmpi .slt (BitVec.ofNat 32 t.val) (len (ix1 b))) = 1 then x (ix3 b t d)
            else Ideal.ofBits .f32 0xF149F2CA#32) := by
  rw [segmax_apply]
  refine congrArg (fun g => (Finset.univ : Finset (Fin 4096)).fold max (Ideal.ofBits .f32 0xFF800000#32) g)
    (funext fun t => ?_)
  rw [m2_apply, halfW_eq]

end Cert.SegLoss.Ref

end
-- ==== Proof.BaseBridge.lean ====
/-
  The mean squared difference, from the per-(row, feature) sums.

  The total sum of `(o − l)²` over (row, time, feature) is the sum over (row, feature) of the sums over time:
  sums over finite index sets in a commutative monoid may be taken in any order. Hence the mean computed from a
  [32, 128] array holding, at each (row, feature), zero plus the sum over time, is the mean the host program
  computes from the full arrays.
-/
import proofs.«118518_j39745627357645_2_alg».proof.Proof.RefDefs
import Idealize.ShloMosaic.Lib.ValueIdx
import Idealize.ShloMosaic.PureOps.Ideal.Laws

noncomputable section

open scoped BigOperators

namespace Cert.SegLoss

open Idealize.ShloMosaic Idealize.ShloMosaic.ValueIdx

/-- A rank-3 index is its triple of coordinates … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- The mean from the per-(row, feature) sums over time is the mean squared difference of the full arrays. -/
theorem base_bridge (o l : FVec Ideal Cert.ReferenceIdeal.S32x4096x128 .f32) (G3 : FVec Ideal S32x128 .f32)
    (hG : ∀ (b : Fin 32) (d : Fin 128), G3 (ix2 b d) = Ideal.ofBits .f32 0x00000000#32
      + ∑ t : Fin 4096, (o (ix3 b t d) - l (ix3 b t d)) * (o (ix3 b t d) - l (ix3 b t d)))
    (hred : S32x128.ReducesTo [0, 1] S_) (hS : 0 < S_.numel) :
    Host.divf (Host.reduceAdd G3 (constant S_ .f32 0x00000000#32) hred hS) (constant S_ .f32 0x4B800000#32)
      = Ref.base (F := Ideal) o l := by
  unfold Ref.base
  congr 1
  funext j
  show Ideal.hostReduceAdd hred G3 _ j = Ideal.hostReduceAdd _ _ _ j
  rw [Ideal.hostReduceAdd_total hred (fun b => b.elim0), Ideal.hostReduceAdd_total _ (fun b => b.elim0)]
  congr 1
  rw [sum_idx2, sum_idx3]
  refine Finset.sum_congr rfl fun b _ => ?_
  rw [Finset.sum_comm]
  refine Finset.sum_congr rfl fun d _ => ?_
  rw [hG b d, Ideal.ofBits_zero_f32, zero_add]
  rfl

end Cert.SegLoss
-- ==== Proof.KRun.lean ====
import proofs.«118518_j39745627357645_2_alg».proof.Proof.Gen.KernelIdeal.Frame
import proofs.«118518_j39745627357645_2_alg».proof.Proof.KFinal
import proofs.«118518_j39745627357645_2_alg».proof.Proof.KTail
import proofs.«118518_j39745627357645_2_alg».proof.Proof.RefBridge
import proofs.«118518_j39745627357645_2_alg».proof.Proof.BaseBridge
import Idealize.ShloMosaic.Lib.Pipeline.Value
import Idealize.ShloMosaic.Lib.Tactic
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen

open Idealize.ShloMosaic.ValueIdx Cert.SegLoss
variable (m : (ℓ : Loc nD τ sig) → Buf (Elt Ideal) ℓ) (ρ : Dev nD → PrngReg)

/-! The kernel program's run, read: its result is the shared last stretch applied to the mean of the sums of
    squares and the four arrays of segment maxima; and these five are the reference's. -/

/-- The kernel program's result on core `c`. -/
def result (c : Dev nD) : FVec Ideal Cert.SegLoss.S_ .f32 :=
  Cert.SegLoss.tail ktf
    (Host.divf (Host.reduceAdd (GS m c : FVec Ideal Cert.SegLoss.S32x128 .f32) (constant S_ .f32 0x00000000#32)
      Gen.reducesTo_S32x128_S_d0_1 Gen.h_S_) (constant S_ .f32 0x4B800000#32))
    (GM m msk1 (arrO m c) c) (GM m msk1 (arrL m c) c) (GM m msk2 (arrO m c) c) (GM m msk2 (arrL m c) c)
    (m ((c : Thread nD τ).loc main_arg2))

/-- Every weakly fair execution ends with the result buffer at `result` and the arguments unchanged, when in every
    row some position lies outside each segment. -/
theorem run
    (hw1 : ∀ (c : Dev nD) (b : Fin 32), ∃ t : Fin 4096, msk1 (lenAt m c b) (BitVec.ofNat 32 t.val) = 0#1)
    (hw2 : ∀ (c : Dev nD) (b : Fin 32), ∃ t : Fin 4096, msk2 (lenAt m c b) (BitVec.ofNat 32 t.val) = 0#1) :
    θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v25 (Pipeline.mem_restRefs_of main_v25 (by decide) (by decide))).trans ((tail_eq m c).trans (by
        have a3 : A m c 3 = GS m c := final3 m c
        have a4 : A m c 4 = GM m msk1 (arrO m c) c := final4 m c (hw1 c)
        have a5 : A m c 5 = GM m msk1 (arrL m c) c := final5 m c (hw1 c)
        have a6 : A m c 6 = GM m msk2 (arrO m c) c := final6 m c (hw2 c)
        have a7 : A m c 7 = GM m msk2 (arrL m c) c := final7 m c (hw2 c)
        unfold result
        rw [a3, a4, a5, a6, a7])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

/-- The row's length as the lengths vector holds it. -/
theorem lenAt_eq (c : Dev nD) (b : Fin 32) : lenAt m c b = m ((c : Thread nD τ).loc main_arg2) (ix1 b) :=
  V_v0_apply m c b

/-- The result is the reference's term of the same argument arrays. -/
theorem result_eq (c : Dev nD) :
    result m c = Cert.SegLoss.tail Ref.tf
      (Ref.base (F := Ideal) (m ((c : Thread nD τ).loc main_arg0)) (m ((c : Thread nD τ).loc main_arg1)))
      (Ref.segmax (m ((c : Thread nD τ).loc main_arg0)) (Ref.m1 (m ((c : Thread nD τ).loc main_arg2))))
      (Ref.segmax (m ((c : Thread nD τ).loc main_arg1)) (Ref.m1 (m ((c : Thread nD τ).loc main_arg2))))
      (Ref.segmax (m ((c : Thread nD τ).loc main_arg0)) (Ref.m2 (m ((c : Thread nD τ).loc main_arg2))))
      (Ref.segmax (m ((c : Thread nD τ).loc main_arg1)) (Ref.m2 (m ((c : Thread nD τ).loc main_arg2))))
      (m ((c : Thread nD τ).loc main_arg2)) := by
  have hO : arrO m c = m ((c : Thread nD τ).loc main_arg0) := V_main_arg0 m c
  have hL : arrL m c = m ((c : Thread nD τ).loc main_arg1) := V_main_arg1 m c
  have e3 : Host.divf (Host.reduceAdd (GS m c : FVec Ideal Cert.SegLoss.S32x128 .f32) (constant S_ .f32 0x00000000#32)
      Gen.reducesTo_S32x128_S_d0_1 Gen.h_S_) (constant S_ .f32 0x4B800000#32)
      = Ref.base (F := Ideal) (m ((c : Thread nD τ).loc main_arg0)) (m ((c : Thread nD τ).loc main_arg1)) :=
    base_bridge _ _ (GS m c) (fun b d => by
      show zeroE + ∑ t : Fin 4096, sqAt m c b d t = _
      unfold sqAt
      rw [hO, hL]) _ _
  have e4 : GM m msk1 (arrO m c) c = Ref.segmax (F := Ideal) (m ((c : Thread nD τ).loc main_arg0)) (Ref.m1 (m ((c : Thread nD τ).loc main_arg2))) := by
    funext i
    obtain ⟨b, d, rfl⟩ : ∃ (b : Fin 32) (d : Fin 128), i = ix2 b d := ⟨i 0, i 1, eq_ix2 i⟩
    rw [Ref.segmax1_apply, ← lenAt_eq m c b, ← hO]
    rfl
  have e5 : GM m msk1 (arrL m c) c = Ref.segmax (F := Ideal) (m ((c : Thread nD τ).loc main_arg1)) (Ref.m1 (m ((c : Thread nD τ).loc main_arg2))) := by
    funext i
    obtain ⟨b, d, rfl⟩ : ∃ (b : Fin 32) (d : Fin 128), i = ix2 b d := ⟨i 0, i 1, eq_ix2 i⟩
    rw [Ref.segmax1_apply, ← lenAt_eq m c b, ← hL]
    rfl
  have e6 : GM m msk2 (arrO m c) c = Ref.segmax (F := Ideal) (m ((c : Thread nD τ).loc main_arg0)) (Ref.m2 (m ((c : Thread nD τ).loc main_arg2))) := by
    funext i
    obtain ⟨b, d, rfl⟩ : ∃ (b : Fin 32) (d : Fin 128), i = ix2 b d := ⟨i 0, i 1, eq_ix2 i⟩
    rw [Ref.segmax2_apply, ← lenAt_eq m c b, ← hO]
    rfl
  have e7 : GM m msk2 (arrL m c) c = Ref.segmax (F := Ideal) (m ((c : Thread nD τ).loc main_arg1)) (Ref.m2 (m ((c : Thread nD τ).loc main_arg2))) := by
    funext i
    obtain ⟨b, d, rfl⟩ : ∃ (b : Fin 32) (d : Fin 128), i = ix2 b d := ⟨i 0, i 1, eq_ix2 i⟩
    rw [Ref.segmax2_apply, ← lenAt_eq m c b, ← hL]
    rfl
  unfold result
  rw [e3, e4, e5, e6, e7]

end Cert.KernelIdeal.SegValue
end
-- ==== Proof.RefOps.lean ====
/-
  The reference program as a straight line of its 97 host operations, and its run.

  The program's three outlined functions (the floor division with its inner select, and the four calls of the masked
  select) are unfolded at their calls, each over the call's own buffers, so that @main is one list of operations;
  every weakly fair execution then ends with each buffer at the fold of the operations' results over the launch
  contents.
-/
import proofs.«118518_j39745627357645_2_alg».proof.Proof.Gen.ReferenceIdeal
import Idealize.ShloMosaic.Lib.StableHlo.Run

noncomputable section

namespace Cert.SegLoss.Ref

open Cert.ReferenceIdeal Cert.ReferenceIdeal.Gen Idealize.ShloMosaic Idealize.ShloMosaic.TcCoe Idealize.SL.Sem

variable {F : FTy → Type} [FloatOps F]

/-- @main's operations in order, the calls unfolded: the floor division is seventeen (sixteen of its own and the
    inner select), each masked select three (the mask's broadcast along the features, the filling constant's
    broadcast, the select). -/
abbrev ops : List (HloOp τ sig (Elt F)) :=
  [ StableHlo.binary main_arg0 main_arg1 main_v0 (subf : (⟨S32x4096x128, .f32⟩ : BufTy).Contents (Elt F) → (⟨S32x4096x128, .f32⟩ : BufTy).Contents (Elt F) → (⟨S32x4096x128, .f32⟩ : BufTy).Contents (Elt F)),
    StableHlo.binary main_v0 main_v0 main_v1 (mulf : (⟨S32x4096x128, .f32⟩ : BufTy).Contents (Elt F) → (⟨S32x4096x128, .f32⟩ : BufTy).Contents (Elt F) → (⟨S32x4096x128, .f32⟩ : BufTy).Contents (Elt F)),
    StableHlo.nullary main_cst (constant S_ .f32 0x00000000#32),
    StableHlo.binary main_v1 main_cst main_v2 ((fun x v => Host.reduceAdd x v reducesTo_S32x4096x128_S_d0_1_2 h_S_) : (⟨S32x4096x128, .f32⟩ : BufTy).Contents (Elt F) → (⟨S_, .f32⟩ : BufTy).Contents (Elt F) → (⟨S_, .f32⟩ : BufTy).Contents (Elt F)),
    StableHlo.nullary main_cst_0 (constant S_ .f32 0x4B800000#32),
    StableHlo.binary main_v2 main_cst_0 main_v3 (Host.divf : (⟨S_, .f32⟩ : BufTy).Contents (Elt F) → (⟨S_, .f32⟩ : BufTy).Contents (Elt F) → (⟨S_, .f32⟩ : BufTy).Contents (Elt F)),
    StableHlo.nullary main_v4 (iotaInDim S4096 32 0),
    StableHlo.unary main_v4 main_v5 (broadcastInDim S1x4096 ![1] bcast_S4096_S1x4096_1 : (⟨S4096, .i32⟩ : BufTy).Contents (Elt F) → (⟨S1x4096, .i32⟩ : BufTy).Contents (Elt F)),
    StableHlo.unary main_arg2 main_v6 (broadcastInDim S32x1 ![0] bcast_S32_S32x1_0 : (⟨S32, .i32⟩ : BufTy).Contents (Elt F) → (⟨S32x1, .i32⟩ : BufTy).Contents (Elt F)),
    StableHlo.nullary main_c (constantI S_ 32 2#32),
    StableHlo.TRef.unary (.of main_c : StableHlo.TRef sig ⟨S_, .i32⟩) main_call0.v0 id,
    StableHlo.TRef.unary main_call0.v0 main_call0.v1 (broadcastInDim S32x1 ![] bcast_S_S32x1),
    StableHlo.TRef.binary (.of main_v6 : StableHlo.TRef sig ⟨S32x1, .i32⟩) main_call0.v1 main_call0.v2 Host.divsi,
    StableHlo.TRef.unary (.of main_v6 : StableHlo.TRef sig ⟨S32x1, .i32⟩) main_call0.v3 signi,
    StableHlo.TRef.unary main_call0.v0 main_call0.v4 signi,
    StableHlo.TRef.unary main_call0.v4 main_call0.v5 (broadcastInDim S32x1 ![] bcast_S_S32x1),
    StableHlo.TRef.binary main_call0.v3 main_call0.v5 main_call0.v6 (cmpi .ne),
    StableHlo.TRef.unary main_call0.v0 main_call0.v7 (broadcastInDim S32x1 ![] bcast_S_S32x1),
    StableHlo.TRef.binary (.of main_v6 : StableHlo.TRef sig ⟨S32x1, .i32⟩) main_call0.v7 main_call0.v8 Host.remsi,
    StableHlo.TRef.nullary main_call0.c (constantI S_ 32 0#32),
    StableHlo.TRef.unary main_call0.c main_call0.v9 (broadcastInDim S32x1 ![] bcast_S_S32x1),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S32x1 ![] bcast_S_S32x1),
    StableHlo.TRef.binary main_call0.v2 main_call0.v12 main_call0.v13 subi,
    StableHlo.TRef.ternary main_call0.v11 main_call0.v13 main_call0.v2 main_call0.call0.v0 select,
    StableHlo.unary main_v5 main_v8 (broadcastInDim S32x4096 ![0, 1] bcast_S1x4096_S32x4096_0_1 : (⟨S1x4096, .i32⟩ : BufTy).Contents (Elt F) → (⟨S32x4096, .i32⟩ : BufTy).Contents (Elt F)),
    StableHlo.unary main_v7 main_v9 (broadcastInDim S32x4096 ![0, 1] bcast_S32x1_S32x4096_0_1 : (⟨S32x1, .i32⟩ : BufTy).Contents (Elt F) → (⟨S32x4096, .i32⟩ : BufTy).Contents (Elt F)),
    StableHlo.binary main_v8 main_v9 main_v10 (cmpi .slt : (⟨S32x4096, .i32⟩ : BufTy).Contents (Elt F) → (⟨S32x4096, .i32⟩ : BufTy).Contents (Elt F) → (⟨S32x4096, .i1⟩ : BufTy).Contents (Elt F)),
    StableHlo.unary main_v5 main_v11 (broadcastInDim S32x4096 ![0, 1] bcast_S1x4096_S32x4096_0_1 : (⟨S1x4096, .i32⟩ : BufTy).Contents (Elt F) → (⟨S32x4096, .i32⟩ : BufTy).Contents (Elt F)),
    StableHlo.unary main_v7 main_v12 (broadcastInDim S32x4096 ![0, 1] bcast_S32x1_S32x4096_0_1 : (⟨S32x1, .i32⟩ : BufTy).Contents (Elt F) → (⟨S32x4096, .i32⟩ : BufTy).Contents (Elt F)),
    StableHlo.binary main_v11 main_v12 main_v13 (cmpi .sge : (⟨S32x4096, .i32⟩ : BufTy).Contents (Elt F) → (⟨S32x4096, .i32⟩ : BufTy).Contents (Elt F) → (⟨S32x4096, .i1⟩ : BufTy).Contents (Elt F)),
    StableHlo.unary main_v5 main_v14 (broadcastInDim S32x4096 ![0, 1] bcast_S1x4096_S32x4096_0_1 : (⟨S1x4096, .i32⟩ : BufTy).Contents (Elt F) → (⟨S32x4096, .i32⟩ : BufTy).Contents (Elt F)),
    StableHlo.unary main_v6 main_v15 (broadcastInDim S32x4096 ![0, 1] bcast_S32x1_S32x4096_0_1 : (⟨S32x1, .i32⟩ : BufTy).Contents (Elt F) → (⟨S32x4096, .i32⟩ : BufTy).Contents (Elt F)),
    StableHlo.binary main_v14 main_v15 main_v16 (cmpi .slt : (⟨S32x4096, .i32⟩ : BufTy).Contents (Elt F) → (⟨S32x4096, .i32⟩ : BufTy).Contents (Elt F) → (⟨S32x4096, .i1⟩ : BufTy).Contents (Elt F)),
    StableHlo.binary main_v13 main_v16 main_v17 (andi : (⟨S32x4096, .i1⟩ : BufTy).Contents (Elt F) → (⟨S32x4096, .i1⟩ : BufTy).Contents (Elt F) → (⟨S32x4096, .i1⟩ : BufTy).Contents (Elt F)),
    StableHlo.unary main_v10 main_v18 (broadcastInDim S32x4096x1 ![0, 1] bcast_S32x4096_S32x4096x1_0_1 : (⟨S32x4096, .i1⟩ : BufTy).Contents (Elt F) → (⟨S32x4096x1, .i1⟩ : BufTy).Contents (Elt F)),
    StableHlo.nullary main_cst_1 (constant S_ .f32 0xF149F2CA#32),
    StableHlo.TRef.unary (.of main_v18 : StableHlo.TRef sig ⟨S32x4096x1, .i1⟩) main_call1.v0 (broadcastInDim S32x4096x128 ![0, 1, 2] bcast_S32x4096x1_S32x4096x128_0_1_2),
    StableHlo.TRef.unary (.of main_cst_1 : StableHlo.TRef sig ⟨S_, .f32⟩) main_call1.v1 (broadcastInDim S32x4096x128 ![] bcast_S_S32x4096x128),
    StableHlo.TRef.ternary main_call1.v0 (.of main_arg0 : StableHlo.TRef sig ⟨S32x4096x128, .f32⟩) main_call1.v1 main_call1.v2 select,
    StableHlo.nullary main_cst_2 (constant S_ .f32 0xFF800000#32),
    StableHlo.binary main_v19 main_cst_2 main_v20 ((fun x v => Host.reduce FloatOps.maximumf x v reducesTo_S32x4096x128_S32x128_d1 h_S_) : (⟨S32x4096x128, .f32⟩ : BufTy).Contents (Elt F) → (⟨S_, .f32⟩ : BufTy).Contents (Elt F) → (⟨S32x128, .f32⟩ : BufTy).Contents (Elt F)),
    StableHlo.unary main_v10 main_v21 (broadcastInDim S32x4096x1 ![0, 1] bcast_S32x4096_S32x4096x1_0_1 : (⟨S32x4096, .i1⟩ : BufTy).Contents (Elt F) → (⟨S32x4096x1, .i1⟩ : BufTy).Contents (Elt F)),
    StableHlo.nullary main_cst_3 (constant S_ .f32 0xF149F2CA#32),
    StableHlo.TRef.unary (.of main_v21 : StableHlo.TRef sig ⟨S32x4096x1, .i1⟩) main_call2.v0 (broadcastInDim S32x4096x128 ![0, 1, 2] bcast_S32x4096x1_S32x4096x128_0_1_2),
    StableHlo.TRef.unary (.of main_cst_3 : StableHlo.TRef sig ⟨S_, .f32⟩) main_call2.v1 (broadcastInDim S32x4096x128 ![] bcast_S_S32x4096x128),
    StableHlo.TRef.ternary main_call2.v0 (.of main_arg1 : StableHlo.TRef sig ⟨S32x4096x128, .f32⟩) main_call2.v1 main_call2.v2 select,
    StableHlo.nullary main_cst_4 (constant S_ .f32 0xFF800000#32),
    StableHlo.binary main_v22 main_cst_4 main_v23 ((fun x v => Host.reduce FloatOps.maximumf x v reducesTo_S32x4096x128_S32x128_d1 h_S_) : (⟨S32x4096x128, .f32⟩ : BufTy).Contents (Elt F) → (⟨S_, .f32⟩ : BufTy).Contents (Elt F) → (⟨S32x128, .f32⟩ : BufTy).Contents (Elt F)),
    StableHlo.binary main_v20 main_v23 main_v24 (subf : (⟨S32x128, .f32⟩ : BufTy).Contents (Elt F) → (⟨S32x128, .f32⟩ : BufTy).Contents (Elt F) → (⟨S32x128, .f32⟩ : BufTy).Contents (Elt F)),
    StableHlo.unary main_v17 main_v25 (broadcastInDim S32x4096x1 ![0, 1] bcast_S32x4096_S32x4096x1_0_1 : (⟨S32x4096, .i1⟩ : BufTy).Contents (Elt F) → (⟨S32x4096x1, .i1⟩ : BufTy).Contents (Elt F)),
    StableHlo.nullary main_cst_5 (constant S_ .f32 0xF149F2CA#32),
    StableHlo.TRef.unary (.of main_v25 : StableHlo.TRef sig ⟨S32x4096x1, .i1⟩) main_call3.v0 (broadcastInDim S32x4096x128 ![0, 1, 2] bcast_S32x4096x1_S32x4096x128_0_1_2),
    StableHlo.TRef.unary (.of main_cst_5 : StableHlo.TRef sig ⟨S_, .f32⟩) main_call3.v1 (broadcastInDim S32x4096x128 ![] bcast_S_S32x4096x128),
    StableHlo.TRef.ternary main_call3.v0 (.of main_arg0 : StableHlo.TRef sig ⟨S32x4096x128, .f32⟩) main_call3.v1 main_call3.v2 select,
    StableHlo.nullary main_cst_6 (constant S_ .f32 0xFF800000#32),
    StableHlo.binary main_v26 main_cst_6 main_v27 ((fun x v => Host.reduce FloatOps.maximumf x v reducesTo_S32x4096x128_S32x128_d1 h_S_) : (⟨S32x4096x128, .f32⟩ : BufTy).Contents (Elt F) → (⟨S_, .f32⟩ : BufTy).Contents (Elt F) → (⟨S32x128, .f32⟩ : BufTy).Contents (Elt F)),
    StableHlo.unary main_v17 main_v28 (broadcastInDim S32x4096x1 ![0, 1] bcast_S32x4096_S32x4096x1_0_1 : (⟨S32x4096, .i1⟩ : BufTy).Contents (Elt F) → (⟨S32x4096x1, .i1⟩ : BufTy).Contents (Elt F)),
    StableHlo.nullary main_cst_7 (constant S_ .f32 0xF149F2CA#32),
    StableHlo.TRef.unary (.of main_v28 : StableHlo.TRef sig ⟨S32x4096x1, .i1⟩) main_call4.v0 (broadcastInDim S32x4096x128 ![0, 1, 2] bcast_S32x4096x1_S32x4096x128_0_1_2),
    StableHlo.TRef.unary (.of main_cst_7 : StableHlo.TRef sig ⟨S_, .f32⟩) main_call4.v1 (broadcastInDim S32x4096x128 ![] bcast_S_S32x4096x128),
    StableHlo.TRef.ternary main_call4.v0 (.of main_arg1 : StableHlo.TRef sig ⟨S32x4096x128, .f32⟩) main_call4.v1 main_call4.v2 select,
    StableHlo.nullary main_cst_8 (constant S_ .f32 0xFF800000#32),
    StableHlo.binary main_v29 main_cst_8 main_v30 ((fun x v => Host.reduce FloatOps.maximumf x v reducesTo_S32x4096x128_S32x128_d1 h_S_) : (⟨S32x4096x128, .f32⟩ : BufTy).Contents (Elt F) → (⟨S_, .f32⟩ : BufTy).Contents (Elt F) → (⟨S32x128, .f32⟩ : BufTy).Contents (Elt F)),
    StableHlo.binary main_v27 main_v30 main_v31 (subf : (⟨S32x128, .f32⟩ : BufTy).Contents (Elt F) → (⟨S32x128, .f32⟩ : BufTy).Contents (Elt F) → (⟨S32x128, .f32⟩ : BufTy).Contents (Elt F)),
    StableHlo.nullary main_c_9 (constantI S_ 32 2#32),
    StableHlo.unary main_c_9 main_v32 (broadcastInDim S32 ![] bcast_S_S32 : (⟨S_, .i32⟩ : BufTy).Contents (Elt F) → (⟨S32, .i32⟩ : BufTy).Contents (Elt F)),
    StableHlo.binary main_arg2 main_v32 main_v33 (cmpi .sge : (⟨S32, .i32⟩ : BufTy).Contents (Elt F) → (⟨S32, .i32⟩ : BufTy).Contents (Elt F) → (⟨S32, .i1⟩ : BufTy).Contents (Elt F)),
    StableHlo.unary main_v33 main_v34 (uitofp .f32 : (⟨S32, .i1⟩ : BufTy).Contents (Elt F) → (⟨S32, .f32⟩ : BufTy).Contents (Elt F)),
    StableHlo.binary main_v24 main_v24 main_v35 (mulf : (⟨S32x128, .f32⟩ : BufTy).Contents (Elt F) → (⟨S32x128, .f32⟩ : BufTy).Contents (Elt F) → (⟨S32x128, .f32⟩ : BufTy).Contents (Elt F)),
    StableHlo.nullary main_cst_10 (constant S_ .f32 0x00000000#32),
    StableHlo.binary main_v35 main_cst_10 main_v36 ((fun x v => Host.reduceAdd x v reducesTo_S32x128_S32_d1 h_S_) : (⟨S32x128, .f32⟩ : BufTy).Contents (Elt F) → (⟨S_, .f32⟩ : BufTy).Contents (Elt F) → (⟨S32, .f32⟩ : BufTy).Contents (Elt F)),
    StableHlo.nullary main_cst_11 (constant S_ .f32 0x43000000#32),
    StableHlo.unary main_cst_11 main_v37 (broadcastInDim S32 ![] bcast_S_S32 : (⟨S_, .f32⟩ : BufTy).Contents (Elt F) → (⟨S32, .f32⟩ : BufTy).Contents (Elt F)),
    StableHlo.binary main_v36 main_v37 main_v38 (Host.divf : (⟨S32, .f32⟩ : BufTy).Contents (Elt F) → (⟨S32, .f32⟩ : BufTy).Contents (Elt F) → (⟨S32, .f32⟩ : BufTy).Contents (Elt F)),
    StableHlo.binary main_v34 main_v38 main_v39 (mulf : (⟨S32, .f32⟩ : BufTy).Contents (Elt F) → (⟨S32, .f32⟩ : BufTy).Contents (Elt F) → (⟨S32, .f32⟩ : BufTy).Contents (Elt F)),
    StableHlo.nullary main_cst_12 (constant S_ .f32 0x00000000#32),
    StableHlo.binary main_v39 main_cst_12 main_v40 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_13 (constant S_ .f32 0x42000000#32),
    StableHlo.binary main_v40 main_cst_13 main_v41 (Host.divf : (⟨S_, .f32⟩ : BufTy).Contents (Elt F) → (⟨S_, .f32⟩ : BufTy).Contents (Elt F) → (⟨S_, .f32⟩ : BufTy).Contents (Elt F)),
    StableHlo.binary main_v31 main_v31 main_v42 (mulf : (⟨S32x128, .f32⟩ : BufTy).Contents (Elt F) → (⟨S32x128, .f32⟩ : BufTy).Contents (Elt F) → (⟨S32x128, .f32⟩ : BufTy).Contents (Elt F)),
    StableHlo.nullary main_cst_14 (constant S_ .f32 0x00000000#32),
    StableHlo.binary main_v42 main_cst_14 main_v43 ((fun x v => Host.reduceAdd x v reducesTo_S32x128_S32_d1 h_S_) : (⟨S32x128, .f32⟩ : BufTy).Contents (Elt F) → (⟨S_, .f32⟩ : BufTy).Contents (Elt F) → (⟨S32, .f32⟩ : BufTy).Contents (Elt F)),
    StableHlo.nullary main_cst_15 (constant S_ .f32 0x43000000#32),
    StableHlo.unary main_cst_15 main_v44 (broadcastInDim S32 ![] bcast_S_S32 : (⟨S_, .f32⟩ : BufTy).Contents (Elt F) → (⟨S32, .f32⟩ : BufTy).Contents (Elt F)),
    StableHlo.binary main_v43 main_v44 main_v45 (Host.divf : (⟨S32, .f32⟩ : BufTy).Contents (Elt F) → (⟨S32, .f32⟩ : BufTy).Contents (Elt F) → (⟨S32, .f32⟩ : BufTy).Contents (Elt F)),
    StableHlo.binary main_v34 main_v45 main_v46 (mulf : (⟨S32, .f32⟩ : BufTy).Contents (Elt F) → (⟨S32, .f32⟩ : BufTy).Contents (Elt F) → (⟨S32, .f32⟩ : BufTy).Contents (Elt F)),
    StableHlo.nullary main_cst_16 (constant S_ .f32 0x00000000#32),
    StableHlo.binary main_v46 main_cst_16 main_v47 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_17 (constant S_ .f32 0x42000000#32),
    StableHlo.binary main_v47 main_cst_17 main_v48 (Host.divf : (⟨S_, .f32⟩ : BufTy).Contents (Elt F) → (⟨S_, .f32⟩ : BufTy).Contents (Elt F) → (⟨S_, .f32⟩ : BufTy).Contents (Elt F)),
    StableHlo.binary main_v41 main_v48 main_v49 (addf : (⟨S_, .f32⟩ : BufTy).Contents (Elt F) → (⟨S_, .f32⟩ : BufTy).Contents (Elt F) → (⟨S_, .f32⟩ : BufTy).Contents (Elt F)),
    StableHlo.nullary main_cst_18 (constant S_ .f32 0x3F000000#32),
    StableHlo.binary main_cst_18 main_v49 main_v50 (mulf : (⟨S_, .f32⟩ : BufTy).Contents (Elt F) → (⟨S_, .f32⟩ : BufTy).Contents (Elt F) → (⟨S_, .f32⟩ : BufTy).Contents (Elt F)),
    StableHlo.binary main_v3 main_v50 main_v51 (addf : (⟨S_, .f32⟩ : BufTy).Contents (Elt F) → (⟨S_, .f32⟩ : BufTy).Contents (Elt F) → (⟨S_, .f32⟩ : BufTy).Contents (Elt F)) ]

-- ninety-seven binds re-associated: the rewrite under the chain recurses once per statement
set_option maxRecDepth 4096 in
set_option maxHeartbeats 4000000 in
/-- @main is that straight line: the two windows and the functions' definitions unfolded, both sides are one chain
    of steps once sequencing is reassociated. -/
theorem main_eq (c : Dev nD) : main (F := F) c = StableHlo.seq ops := by
  simp only [main, main_part0, main_part1, fn_floor_divide.body, fn_where.body, fn_where_0.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

open Idealize.ShloMosaic.StableHlo in
theorem ops_sub : (ops : List (HloOp τ sig (Elt F))).Forall fun op => op.bufs ⊆ StableHlo.tcRefs τ sig :=
  ⟨
    binary_bufs_sub .., binary_bufs_sub .., nullary_bufs_sub .., binary_bufs_sub .., nullary_bufs_sub .., binary_bufs_sub ..,
    nullary_bufs_sub .., unary_bufs_sub .., unary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., nullary_bufs_sub .., unary_bufs_sub .., unary_bufs_sub .., ternary_bufs_sub ..,
    nullary_bufs_sub .., binary_bufs_sub .., unary_bufs_sub .., nullary_bufs_sub .., unary_bufs_sub .., unary_bufs_sub ..,
    ternary_bufs_sub .., nullary_bufs_sub .., binary_bufs_sub .., binary_bufs_sub .., unary_bufs_sub .., nullary_bufs_sub ..,
    unary_bufs_sub .., unary_bufs_sub .., ternary_bufs_sub .., nullary_bufs_sub .., binary_bufs_sub .., unary_bufs_sub ..,
    nullary_bufs_sub .., unary_bufs_sub .., unary_bufs_sub .., ternary_bufs_sub .., nullary_bufs_sub .., binary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., binary_bufs_sub ..,
    nullary_bufs_sub .., binary_bufs_sub .., nullary_bufs_sub .., binary_bufs_sub .., binary_bufs_sub .., nullary_bufs_sub ..,
    binary_bufs_sub .., nullary_bufs_sub .., unary_bufs_sub .., binary_bufs_sub .., binary_bufs_sub .., nullary_bufs_sub ..,
    binary_bufs_sub .., nullary_bufs_sub .., binary_bufs_sub .., binary_bufs_sub .., nullary_bufs_sub .., binary_bufs_sub ..,
    binary_bufs_sub ..⟩

/-- From any memory with zero counters every weakly fair execution of @main terminates, and every final state has
    each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ

end Cert.SegLoss.Ref

end
-- ==== Proof.RefRun.lean ====
/-
  The reference program's run, read back at its result.

  After the 97 operations the result buffer holds the last stretch (the module Tail) applied to the mean squared
  difference, the four masked maxima over time and the lengths, each the composition of the program's own operations
  on the three arguments; the arguments' buffers hold what they held at the start.
-/
import proofs.«118518_j39745627357645_2_alg».proof.Proof.RefDefs
import proofs.«118518_j39745627357645_2_alg».proof.Proof.RefOps

noncomputable section

namespace Cert.SegLoss.Ref

open Cert.ReferenceIdeal Cert.ReferenceIdeal.Gen Idealize.ShloMosaic Idealize.ShloMosaic.TcCoe Idealize.SL.Sem
open Idealize.ShloMosaic.StableHlo

variable {F : FTy → Type} [FloatOps F]

attribute [local irreducible] Host.reduce Host.reduceAdd Host.divf Host.divsi Host.remsi in
set_option maxRecDepth 16384 in
set_option maxHeartbeats 4000000 in
/-- The fold at the result buffer: each operation's result is read at its own buffer and skipped at every other, and
    what is left is the composition the definitions spell. The reductions and quotients are kept folded meanwhile:
    the comparison never looks inside them. -/
theorem out_eq (V : Valuation τ sig (Elt F)) :
    after ops V (main_v51 : DevRef τ sig)
      = Cert.SegLoss.tail tf (base (V (main_arg0 : DevRef τ sig)) (V (main_arg1 : DevRef τ sig)))
          (segmax (V (main_arg0 : DevRef τ sig)) (m1 (V (main_arg2 : DevRef τ sig))))
          (segmax (V (main_arg1 : DevRef τ sig)) (m1 (V (main_arg2 : DevRef τ sig))))
          (segmax (V (main_arg0 : DevRef τ sig)) (m2 (V (main_arg2 : DevRef τ sig))))
          (segmax (V (main_arg1 : DevRef τ sig)) (m2 (V (main_arg2 : DevRef τ sig))))
          (V (main_arg2 : DevRef τ sig)) := by
  after_results_simp
  rfl

set_option maxRecDepth 16384 in
set_option maxHeartbeats 4000000 in
/-- No operation writes the first argument's buffer. -/
theorem arg0_eq (V : Valuation τ sig (Elt F)) :
    after ops V (main_arg0 : DevRef τ sig) = V (main_arg0 : DevRef τ sig) := by
  after_results_simp

set_option maxRecDepth 16384 in
set_option maxHeartbeats 4000000 in
/-- No operation writes the second argument's buffer. -/
theorem arg1_eq (V : Valuation τ sig (Elt F)) :
    after ops V (main_arg1 : DevRef τ sig) = V (main_arg1 : DevRef τ sig) := by
  after_results_simp

set_option maxRecDepth 16384 in
set_option maxHeartbeats 4000000 in
/-- No operation writes the third argument's buffer. -/
theorem arg2_eq (V : Valuation τ sig (Elt F)) :
    after ops V (main_arg2 : DevRef τ sig) = V (main_arg2 : DevRef τ sig) := by
  after_results_simp

/-- On every device, for any float values, from any memory with zero counters: every weakly fair execution of @main
    terminates with the result at the last stretch of the mean squared difference, the four masked maxima and the
    lengths, all of the arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v51)
        = Cert.SegLoss.tail tf (base (m ((c.tc : Thread nD τ).loc main_arg0)) (m ((c.tc : Thread nD τ).loc main_arg1)))
            (segmax (m ((c.tc : Thread nD τ).loc main_arg0)) (m1 (m ((c.tc : Thread nD τ).loc main_arg2))))
            (segmax (m ((c.tc : Thread nD τ).loc main_arg1)) (m1 (m ((c.tc : Thread nD τ).loc main_arg2))))
            (segmax (m ((c.tc : Thread nD τ).loc main_arg0)) (m2 (m ((c.tc : Thread nD τ).loc main_arg2))))
            (segmax (m ((c.tc : Thread nD τ).loc main_arg1)) (m2 (m ((c.tc : Thread nD τ).loc main_arg2))))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v51).trans (out_eq (launchContents m c)),
      (h c main_arg0).trans (arg0_eq (launchContents m c)),
      (h c main_arg1).trans (arg1_eq (launchContents m c)),
      (h c main_arg2).trans (arg2_eq (launchContents m c))⟩)
    (run_after m ρ)

end Cert.SegLoss.Ref

end
-- ==== Proof.PreLen.lean ====
/-
  From the precondition to the bound on the lengths.

  The precondition is the conjunction of three reductions by `and`: both float arrays are finite everywhere, and
  every length is at most 4096 as a signed word. The last conjunct, read at one row, is the bound.
-/
import proofs.«118518_j39745627357645_2_alg».proof.Pre_finite_inputs
import Idealize.ShloMosaic.Lib.ReduceAll
import Idealize.ShloMosaic.Lib.ValueIdx

namespace Cert.SegLoss

open Idealize.ShloMosaic

/-- The scalar shape has one index. -/
instance subsingleton_scalarIdx : Subsingleton Cert.Pre_finite_inputs.S_.Idx :=
  ⟨fun a b => funext fun d => d.elim0⟩

/-- Under the precondition every length is at most 4096 as a signed number. -/
theorem len_le {F : FTy → Type} [FloatOps F] [Cert.Pre_finite_inputs.Facts]
    (a0 a1 : FVec F Cert.Pre_finite_inputs.S32x4096x128 .f32) (len : IVec Cert.Pre_finite_inputs.S32 32)
    (h : Cert.Pre_finite_inputs.fn (F := F) a0 a1 len = fun _ => 1#1) (b : Fin 32) :
    (len (ValueIdx.ix1 b)).toInt ≤ 4096 := by
  have h0 := congrFun h ValueIdx.ix0
  dsimp only [Cert.Pre_finite_inputs.fn] at h0
  have h1 := (IntOp.andi_eq_one.1 h0).2
  have h2 := Host.reduce_andi_all _ _ _ _ _ h1 (ValueIdx.ix1 b)
  have h3 := IntOp.cmpi_sle.1 h2
  exact h3
-- ==== Proof.lean ====
/-
  A segmented-max loss over ragged sequences: outputs and labels f32[32, 4096, 128], lengths i32[32].

  Both programs compute  mean((outputs − labels)²) + 1/2 · (loss of the first-half segment + loss of the second-half
  segment), where a segment's loss compares, per row and feature, the maximum over the segment's time positions of
  the outputs with that of the labels (positions outside the segment count as the finite fill −1e30), squares the
  difference, averages over the 128 features, keeps rows of length at least two, and averages over the 32 rows.

  The kernel walks the time axis in 16 tiles of 256 positions per batch tile of 16 rows, carrying in its five
  output blocks the running sum of squared differences (from zero) and the four running maxima (from the fill).
  Over the extended reals:
    * the running sum is the full sum over time — addition is commutative and associative, no finiteness needed;
    * a running maximum started at the fill is the maximum of the fill and of all masked entries, while the
      reference's maximum starts from −∞; the two agree as soon as one position of the row lies outside the
      segment, since that position already contributes the fill. For the second-half segment
      (half ≤ t < length) such a position always exists; for the first-half segment (t < half) it exists when
      the length is at most the number of time positions, 4096: then position 4095 is outside. This is where the
      stated bound on the lengths is used; the finiteness of the float inputs is not used at all.
  The last stretch (from the mean and the four arrays of maxima to the scalar) is the same function in both
  programs and is never opened. The idealization of the kernel rewrote nothing, so `preserves` is trivial.
-/
import proofs.«118518_j39745627357645_2_alg».proof.Defs
import proofs.«118518_j39745627357645_2_alg».proof.Proof.Gen.Kernel
import proofs.«118518_j39745627357645_2_alg».proof.Proof.Gen.Kernel.Frame
import proofs.«118518_j39745627357645_2_alg».proof.Proof.Gen.KernelIdeal
import proofs.«118518_j39745627357645_2_alg».proof.Proof.Gen.KernelIdeal.Frame
import proofs.«118518_j39745627357645_2_alg».proof.Proof.Gen.ReferenceIdeal
import proofs.«118518_j39745627357645_2_alg».proof.Proof.Gen.Pre_finite_inputs
import proofs.«118518_j39745627357645_2_alg».proof.Proof.KRun
import proofs.«118518_j39745627357645_2_alg».proof.Proof.RefRun
import proofs.«118518_j39745627357645_2_alg».proof.Proof.PreLen
import proofs.«118518_j39745627357645_2_alg».proof.Proof.SegOut
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.SegLoss.Ref.run (F := Ideal) m ρ)

theorem preserves : Cert.preserves_Kernel_KernelIdeal := trivial

/-- Both programs end with the shared last stretch of the same mean and the same four arrays of segment maxima. -/
theorem algebraic : Cert.algebraic_KernelIdeal_ReferenceIdeal := by
  intro m ρ m' ρ' hpre hagree
  have hlen : ∀ (c : Dev Cert.KernelIdeal.nD) (b : Fin 32),
      (Cert.KernelIdeal.SegValue.lenAt m c b).toInt ≤ 4096 := fun c b => by
    rw [Cert.KernelIdeal.SegValue.lenAt_eq]
    exact Cert.SegLoss.len_le _ _ _ (hpre c) b
  refine ⟨fun c => Cert.KernelIdeal.SegValue.result m c,
    Cert.KernelIdeal.SegValue.run m ρ
      (fun c b => ⟨⟨4095, by norm_num⟩, Cert.SegLoss.seg1_out _ (hlen c b)⟩)
      (fun c b => Cert.SegLoss.seg2_out _), ?_⟩
  refine (θ_run Cert.ReferenceIdeal.defs _ _).mono (fun _ h c => ⟨(h c).1.trans ?_, (h c).2⟩)
    (Cert.SegLoss.Ref.run (F := Ideal) m' ρ')
  rw [(hagree c).1, (hagree c).2.1, (hagree c).2.2]
  exact (Cert.KernelIdeal.SegValue.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
